-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S4096x4096 : Shape := ⟨2, ![4096, 4096]⟩
abbrev S32x8192x128 : Shape := ⟨3, ![32, 8192, 128]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x8192x128 : S_.BroadcastsInDim S32x8192x128 (![] : Fin 0 → Fin S32x8192x128.rank)
  reducesTo_S32x8192x128_S_d0_1_2 : S32x8192x128.ReducesTo [0, 1, 2] S_

variable [Facts]

def fn_part1 {F : FTy → Type} [FloatOps F] (main_arg4 : FVec F S32x8192x128 .f32) (main_arg5 : FVec F S32x8192x128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S32x8192x128 .f32 := Host.absf main_arg4
  let main_cst_6 : FVec F S_ .f32 := constant S_ .f32 0x7F800000#32
  let main_v20 : FVec F S32x8192x128 .f32 := broadcastInDim S32x8192x128 ![] bcast_S_S32x8192x128 main_cst_6
  let main_v21 : IVec S32x8192x128 1 := cmpf .olt main_v19 main_v20
  let main_c_7 : IVec S_ 1 := constantI S_ 1 1#1
  let main_v22 : IVec S_ 1 := (fun x v => Host.reduce IntOp.andi x v reducesTo_S32x8192x128_S_d0_1_2 h_S_) main_v21 main_c_7
  let main_v23 : IVec S_ 1 := andi main_v18 main_v22
  let main_v24 : FVec F S32x8192x128 .f32 := Host.absf main_arg5
  let main_cst_8 : FVec F S_ .f32 := constant S_ .f32 0x7F800000#32
  let main_v25 : FVec F S32x8192x128 .f32 := broadcastInDim S32x8192x128 ![] bcast_S_S32x8192x128 main_cst_8
  let main_v26 : IVec S32x8192x128 1 := cmpf .olt main_v24 main_v25
  let main_c_9 : IVec S_ 1 := constantI S_ 1 1#1
  let main_v27 : IVec S_ 1 := (fun x v => Host.reduce IntOp.andi x v reducesTo_S32x8192x128_S_d0_1_2 h_S_) main_v26 main_c_9
  let main_v28 : IVec S_ 1 := andi main_v23 main_v27
  main_v28

def fn {F : FTy → Type} [FloatOps F] (main_arg0 : FVec F S16x4096 .f32) (main_arg1 : FVec F S4096x4096 .f32) (main_arg2 : FVec F S4096x4096 .f32) (main_arg3 : FVec F S4096x4096 .f32) (main_arg4 : FVec F S32x8192x128 .f32) (main_arg5 : FVec F S32x8192x128 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S16x4096 : Shape := ⟨2, ![16, 4096]⟩
abbrev S4096x4096 : Shape := ⟨2, ![4096, 4096]⟩
abbrev S32x8192x128 : Shape := ⟨3, ![32, 8192, 128]⟩
abbrev S4096x128 : Shape := ⟨2, ![4096, 128]⟩
abbrev S1x8192x128 : Shape := ⟨3, ![1, 8192, 128]⟩
abbrev S16x128 : Shape := ⟨2, ![16, 128]⟩
abbrev S16 : Shape := ⟨1, ![16]⟩
abbrev S16x1 : Shape := ⟨2, ![16, 1]⟩
abbrev S8192x128 : Shape := ⟨2, ![8192, 128]⟩
abbrev S16x8192 : Shape := ⟨2, ![16, 8192]⟩
abbrev S16x16 : Shape := ⟨2, ![16, 16]⟩

abbrev nBuf : Space → Nat
  | .hbm => 7
  | .vmem => 13
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x8192x128, .f32⟩
  | .hbm, ⟨5, _⟩ => ⟨S32x8192x128, .f32⟩
  | .hbm, ⟨6, _⟩ => ⟨S16x4096, .f32⟩
  | .local _ .vmem, ⟨0, _⟩ => ⟨S16x4096, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S1x8192x128, .f32⟩
  | .local _ .vmem, ⟨8, _⟩ => ⟨S1x8192x128, .f32⟩
  | .local _ .vmem, ⟨9, _⟩ => ⟨S1x8192x128, .f32⟩
  | .local _ .vmem, ⟨10, _⟩ => ⟨S1x8192x128, .f32⟩
  | .local _ .vmem, ⟨11, _⟩ => ⟨S16x128, .f32⟩
  | .local _ .vmem, ⟨12, _⟩ => ⟨S16x128, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S16x4096_S16x4096_0_0 : ∀ a, (![0, 0] : Fin 2 → Nat) a + S16x4096.size a ≤ S16x4096.size a
  h_S16x4096 : 0 < S16x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  reduces_S16x128_S16 : S16x128.Reduces [1] S16
  shapeCasts_S16_S16x1 : S16.ShapeCasts S16x1
  broadcasts_S16x1_S16x128 : S16x1.Broadcasts S16x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  reduces_S16x8192_S16 : S16x8192.Reduces [1] S16
  reduces_S16x16_S16 : S16x16.Reduces [1] S16
  broadcasts_S16x1_S16x8192 : S16x1.Broadcasts S16x8192
  broadcasts_S16x1_S16x16 : S16x1.Broadcasts S16x16
  inb_S16x128_S16x128_0_0 : ∀ a, (![0, 0] : Fin 2 → Nat) a + S16x128.size a ≤ S16x128.size a
  h_S16x128 : 0 < S16x128.numel
  dot_S16x4096_S4096x128_S16x128_1_0_0_1_n_n_wf : DotDims.WF S16x4096 S4096x128 S16x128 [1] [0] [0] [1] [] []
  dot_S16x128_S8192x128_S16x8192_1_1_0_0_n_n_wf : DotDims.WF S16x128 S8192x128 S16x8192 [1] [1] [0] [0] [] []
  dot_S16x128_S16x128_S16x16_1_1_0_0_n_n_wf : DotDims.WF S16x128 S16x128 S16x16 [1] [1] [0] [0] [] []
  dot_S16x8192_S8192x128_S16x128_1_0_0_1_n_n_wf : DotDims.WF S16x8192 S8192x128 S16x128 [1] [0] [0] [1] [] []
  dot_S16x16_S16x128_S16x128_1_0_0_1_n_n_wf : DotDims.WF S16x16 S16x128 S16x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x4096.size a
  hwx0_1 : ∀ i : grid0.Coords, EltTy.bits .f32 = 32 ∨ (Rect.block (s := S4096x4096) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x4096.size a
  hwx0_2 : ∀ i : grid0.Coords, EltTy.bits .f32 = 32 ∨ (Rect.block (s := S4096x4096) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x4096.size a
  hwx0_3 : ∀ i : grid0.Coords, EltTy.bits .f32 = 32 ∨ (Rect.block (s := S4096x4096) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x128.size a ≤ S32x8192x128.size a
  hwx0_4 : ∀ i : grid0.Coords, EltTy.bits .f32 = 32 ∨ (Rect.block (s := S32x8192x128) S1x8192x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8192x128.size a ≤ S32x8192x128.size a
  hwx0_5 : ∀ i : grid0.Coords, EltTy.bits .f32 = 32 ∨ (Rect.block (s := S32x8192x128) S1x8192x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S16x4096.size a
  hwx0_6 : ∀ i : grid0.Coords, EltTy.bits .f32 = 32 ∨ (Rect.block (s := S16x4096) S16x128.size (cc0_transform_6 i) (hinb0_6 i)).WholeWords (EltTy.packing .f32)

variable [Facts₀]

def dot_S16x4096_S4096x128_S16x128_1_0_0_1_n_n : DotDims S16x4096 S4096x128 S16x128 where
  lhsContracting := [1]
  rhsContracting := [0]
  lhsNonContracting := [0]
  rhsNonContracting := [1]
  lhsBatch := []
  rhsBatch := []
  wf := dot_S16x4096_S4096x128_S16x128_1_0_0_1_n_n_wf
def dot_S16x128_S8192x128_S16x8192_1_1_0_0_n_n : DotDims S16x128 S8192x128 S16x8192 where
  lhsContracting := [1]
  rhsContracting := [1]
  lhsNonContracting := [0]
  rhsNonContracting := [0]
  lhsBatch := []
  rhsBatch := []
  wf := dot_S16x128_S8192x128_S16x8192_1_1_0_0_n_n_wf
def dot_S16x128_S16x128_S16x16_1_1_0_0_n_n : DotDims S16x128 S16x128 S16x16 where
  lhsContracting := [1]
  rhsContracting := [1]
  lhsNonContracting := [0]
  rhsNonContracting := [0]
  lhsBatch := []
  rhsBatch := []
  wf := dot_S16x128_S16x128_S16x16_1_1_0_0_n_n_wf
def dot_S16x8192_S8192x128_S16x128_1_0_0_1_n_n : DotDims S16x8192 S8192x128 S16x128 where
  lhsContracting := [1]
  rhsContracting := [0]
  lhsNonContracting := [0]
  rhsNonContracting := [1]
  lhsBatch := []
  rhsBatch := []
  wf := dot_S16x8192_S8192x128_S16x128_1_0_0_1_n_n_wf
def dot_S16x16_S16x128_S16x128_1_0_0_1_n_n : DotDims S16x16 S16x128 S16x128 where
  lhsContracting := [1]
  rhsContracting := [0]
  lhsNonContracting := [0]
  rhsNonContracting := [1]
  lhsBatch := []
  rhsBatch := []
  wf := dot_S16x16_S16x128_S16x128_1_0_0_1_n_n_wf

abbrev win0_0 : Pipeline.Window sig grid0 :=
  Pipeline.Window.ofSpec (Memref.whole main_arg0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x8192x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x8192x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S16x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x4096 : Shape := ⟨2, ![16, 4096]⟩
abbrev S4096x4096 : Shape := ⟨2, ![4096, 4096]⟩
abbrev S32x8192x128 : Shape := ⟨3, ![32, 8192, 128]⟩
abbrev S16x32x128 : Shape := ⟨3, ![16, 32, 128]⟩
abbrev S32x16x128 : Shape := ⟨3, ![32, 16, 128]⟩
abbrev S_ : Shape := ⟨0, ![]⟩
abbrev S32x16 : Shape := ⟨2, ![32, 16]⟩
abbrev S32x16x1 : Shape := ⟨3, ![32, 16, 1]⟩
abbrev S32x8208x128 : Shape := ⟨3, ![32, 8208, 128]⟩
abbrev S32x16x8208 : Shape := ⟨3, ![32, 16, 8208]⟩

abbrev nBuf : Space → Nat
  | .hbm => 55
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x8192x128, .f32⟩
  | .hbm, ⟨5, _⟩ => ⟨S32x8192x128, .f32⟩
  | .hbm, ⟨6, _⟩ => ⟨S16x4096, .f32⟩
  | .hbm, ⟨7, _⟩ => ⟨S16x32x128, .f32⟩
  | .hbm, ⟨8, _⟩ => ⟨S32x16x128, .f32⟩
  | .hbm, ⟨9, _⟩ => ⟨S16x4096, .f32⟩
  | .hbm, ⟨10, _⟩ => ⟨S16x32x128, .f32⟩
  | .hbm, ⟨11, _⟩ => ⟨S32x16x128, .f32⟩
  | .hbm, ⟨12, _⟩ => ⟨S16x4096, .f32⟩
  | .hbm, ⟨13, _⟩ => ⟨S16x32x128, .f32⟩
  | .hbm, ⟨14, _⟩ => ⟨S32x16x128, .f32⟩
  | .hbm, ⟨15, _⟩ => ⟨S32x16x128, .f32⟩
  | .hbm, ⟨16, _⟩ => ⟨S_, .f32⟩
  | .hbm, ⟨17, _⟩ => ⟨S32x16, .f32⟩
  | .hbm, ⟨18, _⟩ => ⟨S32x16x1, .f32⟩
  | .hbm, ⟨19, _⟩ => ⟨S_, .f32⟩
  | .hbm, ⟨20, _⟩ => ⟨S32x16x1, .f32⟩
  | .hbm, ⟨21, _⟩ => ⟨S32x16x1, .f32⟩
  | .hbm, ⟨22, _⟩ => ⟨S32x16x1, .f32⟩
  | .hbm, ⟨23, _⟩ => ⟨S32x16x128, .f32⟩
  | .hbm, ⟨24, _⟩ => ⟨S32x16x128, .f32⟩
  | .hbm, ⟨25, _⟩ => ⟨S32x16x128, .f32⟩
  | .hbm, ⟨26, _⟩ => ⟨S_, .f32⟩
  | .hbm, ⟨27, _⟩ => ⟨S32x16, .f32⟩
  | .hbm, ⟨28, _⟩ => ⟨S32x16x1, .f32⟩
  | .hbm, ⟨29, _⟩ => ⟨S_, .f32⟩
  | .hbm, ⟨30, _⟩ => ⟨S32x16x1, .f32⟩
  | .hbm, ⟨31, _⟩ => ⟨S32x16x1, .f32⟩
  | .hbm, ⟨32, _⟩ => ⟨S32x16x1, .f32⟩
  | .hbm, ⟨33, _⟩ => ⟨S32x16x128, .f32⟩
  | .hbm, ⟨34, _⟩ => ⟨S32x16x128, .f32⟩
  | .hbm, ⟨35, _⟩ => ⟨S32x8208x128, .f32⟩
  | .hbm, ⟨36, _⟩ => ⟨S32x8208x128, .f32⟩
  | .hbm, ⟨37, _⟩ => ⟨S32x16x8208, .f32⟩
  | .hbm, ⟨38, _⟩ => ⟨S_, .f32⟩
  | .hbm, ⟨39, _⟩ => ⟨S32x16, .f32⟩
  | .hbm, ⟨40, _⟩ => ⟨S_, .f32⟩
  | .hbm, ⟨41, _⟩ => ⟨S32x16, .f32⟩
  | .hbm, ⟨42, _⟩ => ⟨S32x16, .f32⟩
  | .hbm, ⟨43, _⟩ => ⟨S32x16x1, .f32⟩
  | .hbm, ⟨44, _⟩ => ⟨S32x16x8208, .f32⟩
  | .hbm, ⟨45, _⟩ => ⟨S32x16x8208, .f32⟩
  | .hbm, ⟨46, _⟩ => ⟨S32x16x8208, .f32⟩
  | .hbm, ⟨47, _⟩ => ⟨S_, .f32⟩
  | .hbm, ⟨48, _⟩ => ⟨S32x16, .f32⟩
  | .hbm, ⟨49, _⟩ => ⟨S32x16x1, .f32⟩
  | .hbm, ⟨50, _⟩ => ⟨S32x16x8208, .f32⟩
  | .hbm, ⟨51, _⟩ => ⟨S32x16x8208, .f32⟩
  | .hbm, ⟨52, _⟩ => ⟨S32x16x128, .f32⟩
  | .hbm, ⟨53, _⟩ => ⟨S16x32x128, .f32⟩
  | .hbm, ⟨54, _⟩ => ⟨S16x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  shapeCasts_S16x4096_S16x32x128 : S16x4096.ShapeCasts S16x32x128
  transposes_S16x32x128_S32x16x128_1_0_2 : S16x32x128.Transposes [1, 0, 2] S32x16x128
  reducesTo_S32x16x128_S32x16_d2 : S32x16x128.ReducesTo [2] S32x16
  h_S_ : 0 < S_.numel
  bcast_S32x16_S32x16x1_0_1 : S32x16.BroadcastsInDim S32x16x1 (![0, 1] : Fin 2 → Fin S32x16x1.rank)
  bcast_S_S32x16x1 : S_.BroadcastsInDim S32x16x1 (![] : Fin 0 → Fin S32x16x1.rank)
  bcast_S32x16x1_S32x16x128_0_1_2 : S32x16x1.BroadcastsInDim S32x16x128 (![0, 1, 2] : Fin 3 → Fin S32x16x128.rank)
  concatenates_S32x8192x128_S32x16x128_S32x8208x128_d1 : Shape.Concatenates [S32x8192x128, S32x16x128] S32x8208x128 1
  reducesTo_S32x16x8208_S32x16_d2 : S32x16x8208.ReducesTo [2] S32x16
  bcast_S_S32x16 : S_.BroadcastsInDim S32x16 (![] : Fin 0 → Fin S32x16.rank)
  bcast_S32x16x1_S32x16x8208_0_1_2 : S32x16x1.BroadcastsInDim S32x16x8208 (![0, 1, 2] : Fin 3 → Fin S32x16x8208.rank)
  transposes_S32x16x128_S16x32x128_1_0_2 : S32x16x128.Transposes [1, 0, 2] S16x32x128
  shapeCasts_S16x32x128_S16x4096 : S16x32x128.ShapeCasts S16x4096
  dot_S16x4096_S4096x4096_S16x4096_1_0_0_1_n_n_wf : DotDims.WF S16x4096 S4096x4096 S16x4096 [1] [0] [0] [1] [] []
  dot_S32x16x128_S32x8208x128_S32x16x8208_2_2_1_1_0_0_wf : DotDims.WF S32x16x128 S32x8208x128 S32x16x8208 [2] [2] [1] [1] [0] [0]
  dot_S32x16x8208_S32x8208x128_S32x16x128_2_1_1_2_0_0_wf : DotDims.WF S32x16x8208 S32x8208x128 S32x16x128 [2] [1] [1] [2] [0] [0]

variable [Facts₀]

def dot_S16x4096_S4096x4096_S16x4096_1_0_0_1_n_n : DotDims S16x4096 S4096x4096 S16x4096 where
  lhsContracting := [1]
  rhsContracting := [0]
  lhsNonContracting := [0]
  rhsNonContracting := [1]
  lhsBatch := []
  rhsBatch := []
  wf := dot_S16x4096_S4096x4096_S16x4096_1_0_0_1_n_n_wf
def dot_S32x16x128_S32x8208x128_S32x16x8208_2_2_1_1_0_0 : DotDims S32x16x128 S32x8208x128 S32x16x8208 where
  lhsContracting := [2]
  rhsContracting := [2]
  lhsNonContracting := [1]
  rhsNonContracting := [1]
  lhsBatch := [0]
  rhsBatch := [0]
  wf := dot_S32x16x128_S32x8208x128_S32x16x8208_2_2_1_1_0_0_wf
def dot_S32x16x8208_S32x8208x128_S32x16x128_2_1_1_2_0_0 : DotDims S32x16x8208 S32x8208x128 S32x16x128 where
  lhsContracting := [2]
  rhsContracting := [1]
  lhsNonContracting := [1]
  rhsNonContracting := [2]
  lhsBatch := [0]
  rhsBatch := [0]
  wf := dot_S32x16x8208_S32x8208x128_S32x16x128_2_1_1_2_0_0_wf

class Facts : Prop extends Facts₀ where

variable [Facts]
-- ==== Proof.Spec.lean ====
/-
  The mathematics of one attention step with a key/value cache, head by head, on the extended reals.

  For head `h` (of 32), the query, key and value tiles are the products of the 16 × 4096 activations with the
  128 columns `128 h … 128 h + 127` of the three weight matrices (`proj`); queries and keys are scaled row by row by
  the reciprocal root of their mean square (`rms`); a query row is scored against the 8192 cached keys of the head
  and against the 16 new keys; the scores go through a softmax taken over all 8192 + 16 positions, and the output row
  is the softmax-weighted sum of the cached and the new values.

  Two arrangements of that last step are written down. `outK` keeps the cached and the new positions apart: two score
  tiles, the larger of the two row maxima, two sums of exponentials added, two weighted sums of values added, ONE
  division at the end. `outR` joins the positions first (`cat`), takes one maximum and one sum over the 8208 joined
  positions, divides every exponential by the sum and only then weighs the values. The module Algebra proves the two
  equal whenever the scores are real numbers.
-/
import Idealize.ShloMosaic.PureOps.Ideal
import Idealize.ShloMosaic.Lib.ValueIdx

noncomputable section

open scoped BigOperators

namespace Cert.Attn

open Idealize.ShloMosaic Idealize.ShloMosaic.ValueIdx

/-- The column of a weight matrix that lane `d` of head `h` reads. -/
def col (h : Fin 32) (d : Fin 128) : Fin 4096 := ⟨h.val * 128 + d.val, by have := h.isLt; have := d.isLt; omega⟩

/-- One head's tile of a projection: activations times the head's 128 columns of a weight matrix. -/
def proj (X : Fin 16 → Fin 4096 → EReal) (W : Fin 4096 → Fin 4096 → EReal) (h : Fin 32) (m : Fin 16) (d : Fin 128) : EReal :=
  ∑ n : Fin 4096, X m n * W n (col h d)

/-- A tile scaled row by row by the reciprocal root of the row's mean square (the mean is the sum divided by 128.0). -/
def rms (q : Fin 16 → Fin 128 → EReal) (m : Fin 16) (d : Fin 128) : EReal :=
  q m d * Ideal.rsqrt (Ideal.div (∑ e : Fin 128, q m e * q m e) (Ideal.ofBits .f32 0x43000000#32))

/-- A query row against a family of key rows. -/
def score {P : Nat} (qn : Fin 16 → Fin 128 → EReal) (K : Fin P → Fin 128 → EReal) (m : Fin 16) (p : Fin P) : EReal :=
  ∑ e : Fin 128, qn m e * K p e

/-- The largest entry of a row, starting from minus infinity. -/
def rowmax {P : Nat} (s : Fin P → EReal) : EReal :=
  (Finset.univ : Finset (Fin P)).fold max (Ideal.ofBits .f32 0xFF800000#32) s

/-- 8192 cached positions followed by 16 new ones. -/
def cat (a : Fin 8192 → EReal) (b : Fin 16 → EReal) (k : Fin 8208) : EReal :=
  if hk : k.val < 8192 then a ⟨k.val, hk⟩ else b ⟨k.val - 8192, by have := k.isLt; omega⟩

/-- The shared shift of the two score tiles: the larger of their row maxima. -/
def mxK (qn kn : Fin 16 → Fin 128 → EReal) (Kc : Fin 8192 → Fin 128 → EReal) (m : Fin 16) : EReal :=
  max (rowmax (score qn Kc m)) (rowmax (score qn kn m))

/-- The output with cached and new positions kept apart and one division at the end. -/
def outK (qn kn v : Fin 16 → Fin 128 → EReal) (Kc Vc : Fin 8192 → Fin 128 → EReal) (m : Fin 16) (d : Fin 128) : EReal :=
  Ideal.div
    ((∑ p : Fin 8192, Ideal.exp (score qn Kc m p - mxK qn kn Kc m) * Vc p d)
      + ∑ n : Fin 16, Ideal.exp (score qn kn m n - mxK qn kn Kc m) * v n d)
    ((∑ p : Fin 8192, Ideal.exp (score qn Kc m p - mxK qn kn Kc m))
      + ∑ n : Fin 16, Ideal.exp (score qn kn m n - mxK qn kn Kc m))

/-- The scores over the joined positions. -/
def scoreR (qn kn : Fin 16 → Fin 128 → EReal) (Kc : Fin 8192 → Fin 128 → EReal) (m : Fin 16) (k : Fin 8208) : EReal :=
  ∑ e : Fin 128, qn m e * cat (fun p => Kc p e) (fun n => kn n e) k

/-- Their shift: minus infinity against the row maximum. -/
def mxR (qn kn : Fin 16 → Fin 128 → EReal) (Kc : Fin 8192 → Fin 128 → EReal) (m : Fin 16) : EReal :=
  max (Ideal.ofBits .f32 0xFF800000#32) (rowmax (scoreR qn kn Kc m))

/-- The output with the positions joined and every weight divided by the sum before it meets its value. -/
def outR (qn kn v : Fin 16 → Fin 128 → EReal) (Kc Vc : Fin 8192 → Fin 128 → EReal) (m : Fin 16) (d : Fin 128) : EReal :=
  ∑ k : Fin 8208,
    Ideal.div (Ideal.exp (scoreR qn kn Kc m k - mxR qn kn Kc m))
        (∑ k' : Fin 8208, Ideal.exp (scoreR qn kn Kc m k' - mxR qn kn Kc m))
      * cat (fun p => Vc p d) (fun n => v n d) k

/-- The arrays as functions of their coordinates. -/
abbrev m2 {a b : Nat} (A : (⟨2, ![a, b]⟩ : Shape).Idx → EReal) (i : Fin a) (j : Fin b) : EReal := A (ix2 i j)
abbrev m3 {a b c : Nat} (A : (⟨3, ![a, b, c]⟩ : Shape).Idx → EReal) (h : Fin a) (i : Fin b) (j : Fin c) : EReal := A (ix3 h i j)

/-- Head and lane of an output column. -/
def hd (c : Fin 4096) : Fin 32 := ⟨c.val / 128, by have := c.isLt; omega⟩
def ln (c : Fin 4096) : Fin 128 := ⟨c.val % 128, Nat.mod_lt _ (by norm_num)⟩

/-- The whole output array, in the arrangement with the positions kept apart. -/
def GK (X : (⟨2, ![16, 4096]⟩ : Shape).Idx → EReal) (Wq Wk Wv : (⟨2, ![4096, 4096]⟩ : Shape).Idx → EReal)
    (Kc Vc : (⟨3, ![32, 8192, 128]⟩ : Shape).Idx → EReal) : (⟨2, ![16, 4096]⟩ : Shape).Idx → EReal := fun i =>
  outK (rms (proj (m2 X) (m2 Wq) (hd (i 1)))) (rms (proj (m2 X) (m2 Wk) (hd (i 1)))) (proj (m2 X) (m2 Wv) (hd (i 1)))
    (m3 Kc (hd (i 1))) (m3 Vc (hd (i 1))) (i 0) (ln (i 1))

/-- The whole output array, in the arrangement with the positions joined. -/
def GR (X : (⟨2, ![16, 4096]⟩ : Shape).Idx → EReal) (Wq Wk Wv : (⟨2, ![4096, 4096]⟩ : Shape).Idx → EReal)
    (Kc Vc : (⟨3, ![32, 8192, 128]⟩ : Shape).Idx → EReal) : (⟨2, ![16, 4096]⟩ : Shape).Idx → EReal := fun i =>
  outR (rms (proj (m2 X) (m2 Wq) (hd (i 1)))) (rms (proj (m2 X) (m2 Wk) (hd (i 1)))) (proj (m2 X) (m2 Wv) (hd (i 1)))
    (m3 Kc (hd (i 1))) (m3 Vc (hd (i 1))) (i 0) (ln (i 1))

end Cert.Attn

end
-- ==== Proof.Payload.lean ====
/-
  The body of the attention kernel, read entry by entry on the extended reals.

  At one grid point the body loads the activations (16 × 4096), one block of 128 columns of each of the three weight
  matrices (4096 × 128) and the head's cached keys and values (1 × 8192 × 128 each), and stores one 16 × 128 block.
  Every operation in between is exact here, and a rounding to bf16 is the identity, so each contraction is a plain
  sum over its contracted coordinate (`mm_proj` … `mm_nv`), each lane reduction a sum or a maximum over the row
  (`rsum_*`, `rmax_*`), and a row statistic kept as a 16 × 1 column and broadcast back is the statistic of that row
  (`col_cast`, `col_lanes`, `col_cache`, `col_new`). Put together (`body_apply`): the stored entry at row `m`, lane `e`
  is `Attn.outK` of the three projected tiles of the loaded blocks and the loaded cache blocks — the projections
  `tile`, queries and keys scaled by the reciprocal root of their rows' mean squares.
-/
import proofs.«101306_j317827580175_2_alg».proof.Proof.Gen.KernelIdeal.Skeleton
import proofs.«101306_j317827580175_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Attn
/-! ## The five contractions of the body, each read at one entry as a plain sum over its contracted coordinate -/

theorem mm_proj_l (i : S16x128.Idx) (q : dot_S16x4096_S4096x128_S16x128_1_0_0_1_n_n.contr.Idx) : (dot_S16x4096_S4096x128_S16x128_1_0_0_1_n_n.lhsIdx i q 0).val = (i 0).val := by
  unfold DotDims.lhsIdx
  rw [dif_neg (show ¬(0 : Fin S16x4096.rank) ∈ dot_S16x4096_S4096x128_S16x128_1_0_0_1_n_n.lhsBatch by decide), dif_pos (show (0 : Fin S16x4096.rank) ∈ dot_S16x4096_S4096x128_S16x128_1_0_0_1_n_n.lhsNonContracting by decide)]
  rfl
theorem mm_proj_r (i : S16x128.Idx) (q : dot_S16x4096_S4096x128_S16x128_1_0_0_1_n_n.contr.Idx) : (dot_S16x4096_S4096x128_S16x128_1_0_0_1_n_n.rhsIdx i q 1).val = (i 1).val := by
  unfold DotDims.rhsIdx
  rw [dif_neg (show ¬(1 : Fin S4096x128.rank) ∈ dot_S16x4096_S4096x128_S16x128_1_0_0_1_n_n.rhsBatch by decide), dif_pos (show (1 : Fin S4096x128.rank) ∈ dot_S16x4096_S4096x128_S16x128_1_0_0_1_n_n.rhsNonContracting by decide)]
  rfl
theorem mm_proj (a : FVec Ideal S16x4096 .bf16) (b : FVec Ideal S4096x128 .bf16) (m : Fin 16) (e : Fin 128) :
    matmul dot_S16x4096_S4096x128_S16x128_1_0_0_1_n_n none a b (constant (F := Ideal) S16x128 .f32 0x00000000#32) (ix2 m e)
      = ∑ k : Fin 4096, a (ix2 m k) * b (ix2 k e) := by
  simp only [matmul]
  rw [Ideal.matmul_constant_zero_apply, ← Equiv.sum_comp (contrEquiv1 dot_S16x4096_S4096x128_S16x128_1_0_0_1_n_n 4096 rfl rfl).symm]
  refine Finset.sum_congr rfl fun k _ => ?_
  have hk := contrEquiv1_symm_val dot_S16x4096_S4096x128_S16x128_1_0_0_1_n_n 4096 rfl rfl k
  have el : dot_S16x4096_S4096x128_S16x128_1_0_0_1_n_n.lhsIdx (ix2 m e) ((contrEquiv1 dot_S16x4096_S4096x128_S16x128_1_0_0_1_n_n 4096 rfl rfl).symm k) = ix2 m k := funext fun x => Fin.ext (by
    match x with
    | ⟨0, _⟩ => exact mm_proj_l _ _
    | ⟨1, _⟩ => exact (dot_S16x4096_S4096x128_S16x128_1_0_0_1_n_n.lhsIdx_val_of_single rfl _ _).trans hk)
  have er : dot_S16x4096_S4096x128_S16x128_1_0_0_1_n_n.rhsIdx (ix2 m e) ((contrEquiv1 dot_S16x4096_S4096x128_S16x128_1_0_0_1_n_n 4096 rfl rfl).symm k) = ix2 k e := funext fun x => Fin.ext (by
    match x with
    | ⟨0, _⟩ => exact (dot_S16x4096_S4096x128_S16x128_1_0_0_1_n_n.rhsIdx_val_of_single rfl _ _).trans hk
    | ⟨1, _⟩ => exact mm_proj_r _ _)
  rw [el, er]

theorem mm_cache_l (i : S16x8192.Idx) (q : dot_S16x128_S8192x128_S16x8192_1_1_0_0_n_n.contr.Idx) : (dot_S16x128_S8192x128_S16x8192_1_1_0_0_n_n.lhsIdx i q 0).val = (i 0).val := by
  unfold DotDims.lhsIdx
  rw [dif_neg (show ¬(0 : Fin S16x128.rank) ∈ dot_S16x128_S8192x128_S16x8192_1_1_0_0_n_n.lhsBatch by decide), dif_pos (show (0 : Fin S16x128.rank) ∈ dot_S16x128_S8192x128_S16x8192_1_1_0_0_n_n.lhsNonContracting by decide)]
  rfl
theorem mm_cache_r (i : S16x8192.Idx) (q : dot_S16x128_S8192x128_S16x8192_1_1_0_0_n_n.contr.Idx) : (dot_S16x128_S8192x128_S16x8192_1_1_0_0_n_n.rhsIdx i q 0).val = (i 1).val := by
  unfold DotDims.rhsIdx
  rw [dif_neg (show ¬(0 : Fin S8192x128.rank) ∈ dot_S16x128_S8192x128_S16x8192_1_1_0_0_n_n.rhsBatch by decide), dif_pos (show (0 : Fin S8192x128.rank) ∈ dot_S16x128_S8192x128_S16x8192_1_1_0_0_n_n.rhsNonContracting by decide)]
  rfl
theorem mm_cache (a : FVec Ideal S16x128 .bf16) (b : FVec Ideal S8192x128 .bf16) (m : Fin 16) (p : Fin 8192) :
    matmul dot_S16x128_S8192x128_S16x8192_1_1_0_0_n_n none a b (constant (F := Ideal) S16x8192 .f32 0x00000000#32) (ix2 m p)
      = ∑ k : Fin 128, a (ix2 m k) * b (ix2 p k) := by
  simp only [matmul]
  rw [Ideal.matmul_constant_zero_apply, ← Equiv.sum_comp (contrEquiv1 dot_S16x128_S8192x128_S16x8192_1_1_0_0_n_n 128 rfl rfl).symm]
  refine Finset.sum_congr rfl fun k _ => ?_
  have hk := contrEquiv1_symm_val dot_S16x128_S8192x128_S16x8192_1_1_0_0_n_n 128 rfl rfl k
  have el : dot_S16x128_S8192x128_S16x8192_1_1_0_0_n_n.lhsIdx (ix2 m p) ((contrEquiv1 dot_S16x128_S8192x128_S16x8192_1_1_0_0_n_n 128 rfl rfl).symm k) = ix2 m k := funext fun x => Fin.ext (by
    match x with
    | ⟨0, _⟩ => exact mm_cache_l _ _
    | ⟨1, _⟩ => exact (dot_S16x128_S8192x128_S16x8192_1_1_0_0_n_n.lhsIdx_val_of_single rfl _ _).trans hk)
  have er : dot_S16x128_S8192x128_S16x8192_1_1_0_0_n_n.rhsIdx (ix2 m p) ((contrEquiv1 dot_S16x128_S8192x128_S16x8192_1_1_0_0_n_n 128 rfl rfl).symm k) = ix2 p k := funext fun x => Fin.ext (by
    match x with
    | ⟨0, _⟩ => exact mm_cache_r _ _
    | ⟨1, _⟩ => exact (dot_S16x128_S8192x128_S16x8192_1_1_0_0_n_n.rhsIdx_val_of_single rfl _ _).trans hk)
  rw [el, er]

theorem mm_new_l (i : S16x16.Idx) (q : dot_S16x128_S16x128_S16x16_1_1_0_0_n_n.contr.Idx) : (dot_S16x128_S16x128_S16x16_1_1_0_0_n_n.lhsIdx i q 0).val = (i 0).val := by
  unfold DotDims.lhsIdx
  rw [dif_neg (show ¬(0 : Fin S16x128.rank) ∈ dot_S16x128_S16x128_S16x16_1_1_0_0_n_n.lhsBatch by decide), dif_pos (show (0 : Fin S16x128.rank) ∈ dot_S16x128_S16x128_S16x16_1_1_0_0_n_n.lhsNonContracting by decide)]
  rfl
theorem mm_new_r (i : S16x16.Idx) (q : dot_S16x128_S16x128_S16x16_1_1_0_0_n_n.contr.Idx) : (dot_S16x128_S16x128_S16x16_1_1_0_0_n_n.rhsIdx i q 0).val = (i 1).val := by
  unfold DotDims.rhsIdx
  rw [dif_neg (show ¬(0 : Fin S16x128.rank) ∈ dot_S16x128_S16x128_S16x16_1_1_0_0_n_n.rhsBatch by decide), dif_pos (show (0 : Fin S16x128.rank) ∈ dot_S16x128_S16x128_S16x16_1_1_0_0_n_n.rhsNonContracting by decide)]
  rfl
theorem mm_new (a : FVec Ideal S16x128 .bf16) (b : FVec Ideal S16x128 .bf16) (m : Fin 16) (n : Fin 16) :
    matmul dot_S16x128_S16x128_S16x16_1_1_0_0_n_n none a b (constant (F := Ideal) S16x16 .f32 0x00000000#32) (ix2 m n)
      = ∑ k : Fin 128, a (ix2 m k) * b (ix2 n k) := by
  simp only [matmul]
  rw [Ideal.matmul_constant_zero_apply, ← Equiv.sum_comp (contrEquiv1 dot_S16x128_S16x128_S16x16_1_1_0_0_n_n 128 rfl rfl).symm]
  refine Finset.sum_congr rfl fun k _ => ?_
  have hk := contrEquiv1_symm_val dot_S16x128_S16x128_S16x16_1_1_0_0_n_n 128 rfl rfl k
  have el : dot_S16x128_S16x128_S16x16_1_1_0_0_n_n.lhsIdx (ix2 m n) ((contrEquiv1 dot_S16x128_S16x128_S16x16_1_1_0_0_n_n 128 rfl rfl).symm k) = ix2 m k := funext fun x => Fin.ext (by
    match x with
    | ⟨0, _⟩ => exact mm_new_l _ _
    | ⟨1, _⟩ => exact (dot_S16x128_S16x128_S16x16_1_1_0_0_n_n.lhsIdx_val_of_single rfl _ _).trans hk)
  have er : dot_S16x128_S16x128_S16x16_1_1_0_0_n_n.rhsIdx (ix2 m n) ((contrEquiv1 dot_S16x128_S16x128_S16x16_1_1_0_0_n_n 128 rfl rfl).symm k) = ix2 n k := funext fun x => Fin.ext (by
    match x with
    | ⟨0, _⟩ => exact mm_new_r _ _
    | ⟨1, _⟩ => exact (dot_S16x128_S16x128_S16x16_1_1_0_0_n_n.rhsIdx_val_of_single rfl _ _).trans hk)
  rw [el, er]

theorem mm_pv_l (i : S16x128.Idx) (q : dot_S16x8192_S8192x128_S16x128_1_0_0_1_n_n.contr.Idx) : (dot_S16x8192_S8192x128_S16x128_1_0_0_1_n_n.lhsIdx i q 0).val = (i 0).val := by
  unfold DotDims.lhsIdx
  rw [dif_neg (show ¬(0 : Fin S16x8192.rank) ∈ dot_S16x8192_S8192x128_S16x128_1_0_0_1_n_n.lhsBatch by decide), dif_pos (show (0 : Fin S16x8192.rank) ∈ dot_S16x8192_S8192x128_S16x128_1_0_0_1_n_n.lhsNonContracting by decide)]
  rfl
theorem mm_pv_r (i : S16x128.Idx) (q : dot_S16x8192_S8192x128_S16x128_1_0_0_1_n_n.contr.Idx) : (dot_S16x8192_S8192x128_S16x128_1_0_0_1_n_n.rhsIdx i q 1).val = (i 1).val := by
  unfold DotDims.rhsIdx
  rw [dif_neg (show ¬(1 : Fin S8192x128.rank) ∈ dot_S16x8192_S8192x128_S16x128_1_0_0_1_n_n.rhsBatch by decide), dif_pos (show (1 : Fin S8192x128.rank) ∈ dot_S16x8192_S8192x128_S16x128_1_0_0_1_n_n.rhsNonContracting by decide)]
  rfl
theorem mm_pv (a : FVec Ideal S16x8192 .bf16) (b : FVec Ideal S8192x128 .bf16) (m : Fin 16) (e : Fin 128) :
    matmul dot_S16x8192_S8192x128_S16x128_1_0_0_1_n_n none a b (constant (F := Ideal) S16x128 .f32 0x00000000#32) (ix2 m e)
      = ∑ k : Fin 8192, a (ix2 m k) * b (ix2 k e) := by
  simp only [matmul]
  rw [Ideal.matmul_constant_zero_apply, ← Equiv.sum_comp (contrEquiv1 dot_S16x8192_S8192x128_S16x128_1_0_0_1_n_n 8192 rfl rfl).symm]
  refine Finset.sum_congr rfl fun k _ => ?_
  have hk := contrEquiv1_symm_val dot_S16x8192_S8192x128_S16x128_1_0_0_1_n_n 8192 rfl rfl k
  have el : dot_S16x8192_S8192x128_S16x128_1_0_0_1_n_n.lhsIdx (ix2 m e) ((contrEquiv1 dot_S16x8192_S8192x128_S16x128_1_0_0_1_n_n 8192 rfl rfl).symm k) = ix2 m k := funext fun x => Fin.ext (by
    match x with
    | ⟨0, _⟩ => exact mm_pv_l _ _
    | ⟨1, _⟩ => exact (dot_S16x8192_S8192x128_S16x128_1_0_0_1_n_n.lhsIdx_val_of_single rfl _ _).trans hk)
  have er : dot_S16x8192_S8192x128_S16x128_1_0_0_1_n_n.rhsIdx (ix2 m e) ((contrEquiv1 dot_S16x8192_S8192x128_S16x128_1_0_0_1_n_n 8192 rfl rfl).symm k) = ix2 k e := funext fun x => Fin.ext (by
    match x with
    | ⟨0, _⟩ => exact (dot_S16x8192_S8192x128_S16x128_1_0_0_1_n_n.rhsIdx_val_of_single rfl _ _).trans hk
    | ⟨1, _⟩ => exact mm_pv_r _ _)
  rw [el, er]

theorem mm_nv_l (i : S16x128.Idx) (q : dot_S16x16_S16x128_S16x128_1_0_0_1_n_n.contr.Idx) : (dot_S16x16_S16x128_S16x128_1_0_0_1_n_n.lhsIdx i q 0).val = (i 0).val := by
  unfold DotDims.lhsIdx
  rw [dif_neg (show ¬(0 : Fin S16x16.rank) ∈ dot_S16x16_S16x128_S16x128_1_0_0_1_n_n.lhsBatch by decide), dif_pos (show (0 : Fin S16x16.rank) ∈ dot_S16x16_S16x128_S16x128_1_0_0_1_n_n.lhsNonContracting by decide)]
  rfl
theorem mm_nv_r (i : S16x128.Idx) (q : dot_S16x16_S16x128_S16x128_1_0_0_1_n_n.contr.Idx) : (dot_S16x16_S16x128_S16x128_1_0_0_1_n_n.rhsIdx i q 1).val = (i 1).val := by
  unfold DotDims.rhsIdx
  rw [dif_neg (show ¬(1 : Fin S16x128.rank) ∈ dot_S16x16_S16x128_S16x128_1_0_0_1_n_n.rhsBatch by decide), dif_pos (show (1 : Fin S16x128.rank) ∈ dot_S16x16_S16x128_S16x128_1_0_0_1_n_n.rhsNonContracting by decide)]
  rfl
theorem mm_nv (a : FVec Ideal S16x16 .bf16) (b : FVec Ideal S16x128 .bf16) (m : Fin 16) (e : Fin 128) :
    matmul dot_S16x16_S16x128_S16x128_1_0_0_1_n_n none a b (constant (F := Ideal) S16x128 .f32 0x00000000#32) (ix2 m e)
      = ∑ k : Fin 16, a (ix2 m k) * b (ix2 k e) := by
  simp only [matmul]
  rw [Ideal.matmul_constant_zero_apply, ← Equiv.sum_comp (contrEquiv1 dot_S16x16_S16x128_S16x128_1_0_0_1_n_n 16 rfl rfl).symm]
  refine Finset.sum_congr rfl fun k _ => ?_
  have hk := contrEquiv1_symm_val dot_S16x16_S16x128_S16x128_1_0_0_1_n_n 16 rfl rfl k
  have el : dot_S16x16_S16x128_S16x128_1_0_0_1_n_n.lhsIdx (ix2 m e) ((contrEquiv1 dot_S16x16_S16x128_S16x128_1_0_0_1_n_n 16 rfl rfl).symm k) = ix2 m k := funext fun x => Fin.ext (by
    match x with
    | ⟨0, _⟩ => exact mm_nv_l _ _
    | ⟨1, _⟩ => exact (dot_S16x16_S16x128_S16x128_1_0_0_1_n_n.lhsIdx_val_of_single rfl _ _).trans hk)
  have er : dot_S16x16_S16x128_S16x128_1_0_0_1_n_n.rhsIdx (ix2 m e) ((contrEquiv1 dot_S16x16_S16x128_S16x128_1_0_0_1_n_n 16 rfl rfl).symm k) = ix2 k e := funext fun x => Fin.ext (by
    match x with
    | ⟨0, _⟩ => exact (dot_S16x16_S16x128_S16x128_1_0_0_1_n_n.rhsIdx_val_of_single rfl _ _).trans hk
    | ⟨1, _⟩ => exact mm_nv_r _ _)
  rw [el, er]

/-! ## Row reductions, and a row statistic kept as a column and spread back over the row -/

theorem rsum_lanes (v : FVec Ideal S16x128 .f32) (hφ : FTy.f32 = FTy.f32 ∨ FTy.f32 = FTy.bf16) (hacc : @Eq (BitVec FTy.f32.bits) 0x00000000#32 0x00000000#32) (m : Fin 16) :
    multiReduction .add [1] S16 v 0x00000000#32 reduces_S16x128_S16 hφ hacc (ix1 m) = ∑ e : Fin 128, v (ix2 m e) :=
  (Ideal.multiReduction_add_single v 0x00000000#32 reduces_S16x128_S16 hφ hacc (ix1 m)).trans
    (Finset.sum_congr rfl fun k _ => congrArg v (funext fun a => Fin.ext (by match a with | ⟨0, _⟩ => rfl | ⟨1, _⟩ => rfl)))

theorem rsum_cache (v : FVec Ideal S16x8192 .f32) (hφ : FTy.f32 = FTy.f32 ∨ FTy.f32 = FTy.bf16) (hacc : @Eq (BitVec FTy.f32.bits) 0x00000000#32 0x00000000#32) (m : Fin 16) :
    multiReduction .add [1] S16 v 0x00000000#32 reduces_S16x8192_S16 hφ hacc (ix1 m) = ∑ p : Fin 8192, v (ix2 m p) :=
  (Ideal.multiReduction_add_single v 0x00000000#32 reduces_S16x8192_S16 hφ hacc (ix1 m)).trans
    (Finset.sum_congr rfl fun k _ => congrArg v (funext fun a => Fin.ext (by match a with | ⟨0, _⟩ => rfl | ⟨1, _⟩ => rfl)))

theorem rsum_new (v : FVec Ideal S16x16 .f32) (hφ : FTy.f32 = FTy.f32 ∨ FTy.f32 = FTy.bf16) (hacc : @Eq (BitVec FTy.f32.bits) 0x00000000#32 0x00000000#32) (m : Fin 16) :
    multiReduction .add [1] S16 v 0x00000000#32 reduces_S16x16_S16 hφ hacc (ix1 m) = ∑ n : Fin 16, v (ix2 m n) :=
  (Ideal.multiReduction_add_single v 0x00000000#32 reduces_S16x16_S16 hφ hacc (ix1 m)).trans
    (Finset.sum_congr rfl fun k _ => congrArg v (funext fun a => Fin.ext (by match a with | ⟨0, _⟩ => rfl | ⟨1, _⟩ => rfl)))

theorem rmax_cache (v : FVec Ideal S16x8192 .f32) (hφ : FTy.f32 = FTy.f32 ∨ FTy.f32 = FTy.bf16) (hacc : @Eq (BitVec FTy.f32.bits) 0xFF800000#32 0xFF800000#32) (m : Fin 16) :
    multiReduction .maximumf [1] S16 v 0xFF800000#32 reduces_S16x8192_S16 hφ hacc (ix1 m) = rowmax fun p : Fin 8192 => v (ix2 m p) :=
  (Ideal.multiReduction_maximumf_single v 0xFF800000#32 reduces_S16x8192_S16 hφ hacc (ix1 m)).trans
    (congrArg (fun f => (Finset.univ : Finset (Fin 8192)).fold max (Ideal.ofBits .f32 0xFF800000#32) f)
      (funext fun k => congrArg v (funext fun a => Fin.ext (by match a with | ⟨0, _⟩ => rfl | ⟨1, _⟩ => rfl))))

theorem rmax_new (v : FVec Ideal S16x16 .f32) (hφ : FTy.f32 = FTy.f32 ∨ FTy.f32 = FTy.bf16) (hacc : @Eq (BitVec FTy.f32.bits) 0xFF800000#32 0xFF800000#32) (m : Fin 16) :
    multiReduction .maximumf [1] S16 v 0xFF800000#32 reduces_S16x16_S16 hφ hacc (ix1 m) = rowmax fun n : Fin 16 => v (ix2 m n) :=
  (Ideal.multiReduction_maximumf_single v 0xFF800000#32 reduces_S16x16_S16 hφ hacc (ix1 m)).trans
    (congrArg (fun f => (Finset.univ : Finset (Fin 16)).fold max (Ideal.ofBits .f32 0xFF800000#32) f)
      (funext fun k => congrArg v (funext fun a => Fin.ext (by match a with | ⟨0, _⟩ => rfl | ⟨1, _⟩ => rfl))))

/-- A 16-vector recast as a 16 × 1 column. -/
theorem col_cast (v : FVec Ideal S16 .f32) (m : Fin 16) :
    shapeCast S16x1 v shapeCasts_S16_S16x1 (ix2 m (0 : Fin 1)) = v (ix1 m) :=
  shapeCast_apply v shapeCasts_S16_S16x1 _ _ (by
    rw [Shape.rowMajor_val_one, Shape.rowMajor_val_two]; show m.val = m.val * 1 + 0; omega)

/-- A 16 × 1 column spread over rows of 128, 8192 or 16 entries. -/
theorem col_lanes (v : FVec Ideal S16x1 .f32) (m : Fin 16) (e : Fin 128) :
    broadcastTo S16x128 v broadcasts_S16x1_S16x128 (ix2 m e) = v (ix2 m (0 : Fin 1)) :=
  broadcastTo_apply v broadcasts_S16x1_S16x128 _ _ (fun a => match a with
    | ⟨0, _⟩ => by show m.val = if (16 : ℕ) = 1 then 0 else m.val; rw [if_neg (by decide)]
    | ⟨1, _⟩ => by show (0 : ℕ) = if (1 : ℕ) = 1 then 0 else e.val; rw [if_pos rfl])

theorem col_cache (v : FVec Ideal S16x1 .f32) (m : Fin 16) (p : Fin 8192) :
    broadcastTo S16x8192 v broadcasts_S16x1_S16x8192 (ix2 m p) = v (ix2 m (0 : Fin 1)) :=
  broadcastTo_apply v broadcasts_S16x1_S16x8192 _ _ (fun a => match a with
    | ⟨0, _⟩ => by show m.val = if (16 : ℕ) = 1 then 0 else m.val; rw [if_neg (by decide)]
    | ⟨1, _⟩ => by show (0 : ℕ) = if (1 : ℕ) = 1 then 0 else p.val; rw [if_pos rfl])

theorem col_new (v : FVec Ideal S16x1 .f32) (m : Fin 16) (n : Fin 16) :
    broadcastTo S16x16 v broadcasts_S16x1_S16x16 (ix2 m n) = v (ix2 m (0 : Fin 1)) :=
  broadcastTo_apply v broadcasts_S16x1_S16x16 _ _ (fun a => match a with
    | ⟨0, _⟩ => by show m.val = if (16 : ℕ) = 1 then 0 else m.val; rw [if_neg (by decide)]
    | ⟨1, _⟩ => by show (0 : ℕ) = if (1 : ℕ) = 1 then 0 else n.val; rw [if_pos rfl])

/-- The head's cache block, a 1 × 8192 × 128 slab, read as an 8192 × 128 matrix. -/
theorem slab (x : FVec Ideal S1x8192x128 .f32) (p : Fin 8192) (e : Fin 128) :
    shapeCast S8192x128 x shapeCasts_S1x8192x128_S8192x128 (ix2 p e) = x (ix3 (0 : Fin 1) p e) :=
  shapeCast_1ab_ab_apply x shapeCasts_S1x8192x128_S8192x128 p e

/-! ## The body's arithmetic, entry by entry -/

theorem rsqrt_apply {s : Shape} {φ : FTy} (v : FVec Ideal s φ) (i : s.Idx) : rsqrt v i = Ideal.rsqrt (v i) := rfl
theorem exp_apply {s : Shape} {φ : FTy} (v : FVec Ideal s φ) (i : s.Idx) : exp v i = Ideal.exp (v i) := rfl

/-- The product of the activations with a block of 128 weight columns. -/
def tile (x : Vec Ideal S16x4096 .f32) (w : Vec Ideal S4096x128 .f32) (m : Fin 16) (e : Fin 128) : EReal :=
  ∑ k : Fin 4096, (x (ix2 m k) : EReal) * w (ix2 k e)

/-- The query tile as the body hands it to the score products: the projection, scaled by the reciprocal root of
    its rows' mean squares (the rounding to bf16 is the identity on the extended reals). -/
theorem pay3_apply (x0 : Vec Ideal S16x4096 .f32) (x2 : Vec Ideal S4096x128 .f32) (m : Fin 16) (e : Fin 128) :
    k0_pay3 (F := Ideal) x0 x2 (ix2 m e) = rms (tile x0 x2) m e := by
  unfold k0_pay3 k0_pay2
  dsimp only
  simp only [truncf_apply, mulf_apply, col_lanes, mm_proj, rsqrt_apply, divf_apply, col_cast, broadcast_apply]
  rw [rsum_lanes]
  simp only [truncf_apply, mulf_apply, mm_proj]
  rfl

/-- The key tile likewise. -/
theorem pay4_apply (x0 : Vec Ideal S16x4096 .f32) (x4 : Vec Ideal S4096x128 .f32) (m : Fin 16) (e : Fin 128) :
    k0_pay4 (F := Ideal) x0 x4 (ix2 m e) = rms (tile x0 x4) m e := by
  unfold k0_pay4 k0_pay2
  dsimp only
  simp only [truncf_apply, mulf_apply, col_lanes, mm_proj, rsqrt_apply, divf_apply, col_cast, broadcast_apply]
  rw [rsum_lanes]
  simp only [truncf_apply, mulf_apply, mm_proj]
  rfl

/-- The value tile is the bare projection. -/
theorem pay5_apply (x0 : Vec Ideal S16x4096 .f32) (x6 : Vec Ideal S4096x128 .f32) (m : Fin 16) (e : Fin 128) :
    k0_pay5 (F := Ideal) x0 x6 (ix2 m e) = tile x0 x6 m e := by
  unfold k0_pay5 k0_pay2
  dsimp only
  simp only [truncf_apply, mm_proj]
  rfl

/-- The cached values of the head as a matrix. -/
theorem pay6_apply (x33 : Vec Ideal S1x8192x128 .f32) (p : Fin 8192) (e : Fin 128) :
    k0_pay6 (F := Ideal) x33 (ix2 p e) = x33 (ix3 (0 : Fin 1) p e) := by
  unfold k0_pay6
  try dsimp only
  simp only [truncf_apply, slab]

/-- The scores of the query rows against the cached keys. -/
theorem pay7_apply (x0 : Vec Ideal S16x4096 .f32) (x2 : Vec Ideal S4096x128 .f32) (x30 : Vec Ideal S1x8192x128 .f32) (m : Fin 16) (p : Fin 8192) :
    k0_pay7 (F := Ideal) x0 x2 x30 (ix2 m p)
      = score (rms (tile x0 x2)) (fun p e => (x30 (ix3 (0 : Fin 1) p e) : EReal)) m p := by
  unfold k0_pay7
  try dsimp only
  simp only [truncf_apply, mm_cache, slab, pay3_apply]
  rfl

/-- The output tile from the three projected tiles, the head's cached values and the scores against the cached keys:
    the exponentials of the two score tiles, shifted by the larger of their row maxima, weigh the cached and the new
    values; the two weighted sums are added and divided by the added sums of the exponentials. -/
theorem pay1_apply (qn kn v : FVec Ideal S16x128 .bf16) (Vc : FVec Ideal S8192x128 .bf16) (sc : FVec Ideal S16x8192 .f32) (m : Fin 16) (e : Fin 128) :
    k0_pay1 (F := Ideal) qn kn v Vc sc (ix2 m e) =
      Ideal.div
        ((∑ p : Fin 8192, Ideal.exp (sc (ix2 m p) - max (rowmax fun p : Fin 8192 => sc (ix2 m p)) (rowmax fun n : Fin 16 => ∑ k : Fin 128, qn (ix2 m k) * kn (ix2 n k))) * Vc (ix2 p e))
          + ∑ n : Fin 16, Ideal.exp ((∑ k : Fin 128, qn (ix2 m k) * kn (ix2 n k)) - max (rowmax fun p : Fin 8192 => sc (ix2 m p)) (rowmax fun n : Fin 16 => ∑ k : Fin 128, qn (ix2 m k) * kn (ix2 n k))) * v (ix2 n e))
        ((∑ p : Fin 8192, Ideal.exp (sc (ix2 m p) - max (rowmax fun p : Fin 8192 => sc (ix2 m p)) (rowmax fun n : Fin 16 => ∑ k : Fin 128, qn (ix2 m k) * kn (ix2 n k))))
          + ∑ n : Fin 16, Ideal.exp ((∑ k : Fin 128, qn (ix2 m k) * kn (ix2 n k)) - max (rowmax fun p : Fin 8192 => sc (ix2 m p)) (rowmax fun n : Fin 16 => ∑ k : Fin 128, qn (ix2 m k) * kn (ix2 n k)))) := by
  unfold k0_pay1
  dsimp only
  simp only [divf_apply, addf_apply, col_lanes, mm_pv, mm_nv, truncf_apply, exp_apply, subf_apply, col_cache, col_new, maximumf_apply, col_cast]
  rw [rsum_cache, rsum_new]
  simp only [divf_apply, addf_apply, col_lanes, truncf_apply, exp_apply, subf_apply, col_cache, col_new, maximumf_apply, col_cast]
  rw [rmax_cache, rmax_new]
  simp only [mm_new]

/-- What the body stores at row `m`, lane `e` of its output block, from the six blocks it loads: the attention output
    of the head in the arrangement with the cached and the new positions kept apart. -/
theorem body_apply (x0 : Vec Ideal S16x4096 .f32) (x1 x2 x3 : Vec Ideal S4096x128 .f32) (x4 x5 : Vec Ideal S1x8192x128 .f32) (m : Fin 16) (e : Fin 128) :
    k0_pay1 (F := Ideal) (k0_pay3 x0 x1) (k0_pay4 x0 x2) (k0_pay5 x0 x3) (k0_pay6 x5) (k0_pay7 x0 x1 x4) (ix2 m e)
      = outK (rms (tile x0 x1)) (rms (tile x0 x2)) (tile x0 x3) (fun p k => (x4 (ix3 (0 : Fin 1) p k) : EReal))
          (fun p k => (x5 (ix3 (0 : Fin 1) p k) : EReal)) m e := by
  rw [pay1_apply]
  simp only [pay3_apply, pay4_apply, pay5_apply, pay6_apply, pay7_apply]
  rfl

end Cert.KernelIdeal.Body

end
-- ==== Proof.KernelValue.lean ====
/-
  The attention kernel's output array after its run, as one function of the six argument arrays.

  The grid has 32 points, one per head. At point `t` the activations window sits at block (0, 0) — the whole
  array —, each weight window at block column `t` (columns 128 t … 128 t + 127), each cache window at block `t` of the
  leading axis (head `t`), and the output window at block column `t` (`idx_facts`, decided over the grid). So each
  loaded block is a restriction of its argument array (`iblk0_apply` … `iblk5_apply`), the three projected tiles of the
  loaded blocks are head `t`'s tiles of the arrays (`tile_eq`), and what point `t` writes back is block column `t` of
  `Attn.GK` of the arrays (`flushed_eq`, by the body read entry by entry). The 32 block columns cover the 16 × 4096
  output (`cover`: column `c` lies in the block of point `c / 128`), so the output array ends holding `Attn.GK` (`final`,
  `run`).
-/
import proofs.«101306_j317827580175_2_alg».proof.Proof.Gen.KernelIdeal.Value
import proofs.«101306_j317827580175_2_alg».proof.Proof.Payload
import proofs.«101306_j317827580175_2_alg».proof.Proof.Spec
import Idealize.ShloMosaic.Lib.Pipeline.Value
import Idealize.ShloMosaic.Lib.ValueIdx

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Value Cert.KernelIdeal.Body Idealize.ShloMosaic.ValueIdx Cert.Attn

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has one point per head. -/
def headOf (t : Fin cfg0.N) : Fin 32 := ⟨t.val, lt_of_lt_of_eq t.isLt N_0⟩

/-- Where the windows sit at point `t`: the activations always at block (0, 0); each weight matrix, and the output,
    at block column `t`; each cache at block `t` of its leading axis. Decided over the 32 points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 2) = 0 ∧ win0_6.index t (1 : Fin 2) = t.val :=
  (by decide +kernel : ∀ t : Fin grid0.N, _)

/-! ## Each loaded block as entries of its argument array -/

theorem iblk0_apply (c : Dev nD) (t : Fin cfg0.N) (r : Fin 16) (k : Fin 4096) :
    (iblk m c 0 t : Vec Ideal S16x4096 .f32) (ix2 r k) = m2 (m ((c : Thread nD τ).loc main_arg0)) r k := by
  obtain ⟨e0, e1, -⟩ := idx_facts t
  unfold iblk
  rw [View.read_apply]
  show V m c main_arg0 _ = m (c.tc.loc main_arg0) _
  unfold V
  refine congrArg _ (funext fun a => Fin.ext ?_)
  match a with
  | ⟨0, _⟩ => show win0_0.index t 0 * 16 + 1 * r.val = r.val; rw [e0]; omega
  | ⟨1, _⟩ => show win0_0.index t 1 * 4096 + 1 * k.val = k.val; rw [e1]; omega

theorem iblk1_apply (c : Dev nD) (t : Fin cfg0.N) (k : Fin 4096) (e : Fin 128) :
    (iblk m c 1 t : Vec Ideal S4096x128 .f32) (ix2 k e) = m2 (m ((c : Thread nD τ).loc main_arg1)) k (col (headOf t) e) := by
  obtain ⟨-, -, a0, a1, b0, b1, c0, c1, -⟩ := idx_facts t
  unfold iblk
  rw [View.read_apply]
  show V m c main_arg1 _ = m (c.tc.loc main_arg1) _
  unfold V
  refine congrArg _ (funext fun a => Fin.ext ?_)
  match a with
  | ⟨0, _⟩ => show win0_1.index t 0 * 4096 + 1 * k.val = k.val; rw [a0]; omega
  | ⟨1, _⟩ => show win0_1.index t 1 * 128 + 1 * e.val = t.val * 128 + e.val; rw [a1]; omega

theorem iblk2_apply (c : Dev nD) (t : Fin cfg0.N) (k : Fin 4096) (e : Fin 128) :
    (iblk m c 2 t : Vec Ideal S4096x128 .f32) (ix2 k e) = m2 (m ((c : Thread nD τ).loc main_arg2)) k (col (headOf t) e) := by
  obtain ⟨-, -, a0, a1, b0, b1, c0, c1, -⟩ := idx_facts t
  unfold iblk
  rw [View.read_apply]
  show V m c main_arg2 _ = m (c.tc.loc main_arg2) _
  unfold V
  refine congrArg _ (funext fun a => Fin.ext ?_)
  match a with
  | ⟨0, _⟩ => show win0_2.index t 0 * 4096 + 1 * k.val = k.val; rw [b0]; omega
  | ⟨1, _⟩ => show win0_2.index t 1 * 128 + 1 * e.val = t.val * 128 + e.val; rw [b1]; omega

theorem iblk3_apply (c : Dev nD) (t : Fin cfg0.N) (k : Fin 4096) (e : Fin 128) :
    (iblk m c 3 t : Vec Ideal S4096x128 .f32) (ix2 k e) = m2 (m ((c : Thread nD τ).loc main_arg3)) k (col (headOf t) e) := by
  obtain ⟨-, -, a0, a1, b0, b1, c0, c1, -⟩ := idx_facts t
  unfold iblk
  rw [View.read_apply]
  show V m c main_arg3 _ = m (c.tc.loc main_arg3) _
  unfold V
  refine congrArg _ (funext fun a => Fin.ext ?_)
  match a with
  | ⟨0, _⟩ => show win0_3.index t 0 * 4096 + 1 * k.val = k.val; rw [c0]; omega
  | ⟨1, _⟩ => show win0_3.index t 1 * 128 + 1 * e.val = t.val * 128 + e.val; rw [c1]; omega

theorem iblk4_apply (c : Dev nD) (t : Fin cfg0.N) (p : Fin 8192) (e : Fin 128) :
    (iblk m c 4 t : Vec Ideal S1x8192x128 .f32) (ix3 (0 : Fin 1) p e) = m3 (m ((c : Thread nD τ).loc main_arg4)) (headOf t) p e := by
  obtain ⟨-, -, -, -, -, -, -, -, k0, k1, k2, v0, v1, v2, -⟩ := idx_facts t
  unfold iblk
  rw [View.read_apply]
  show V m c main_arg4 _ = m (c.tc.loc main_arg4) _
  unfold V
  refine congrArg _ (funext fun a => Fin.ext ?_)
  match a with
  | ⟨0, _⟩ => show win0_4.index t 0 * 1 + 1 * 0 = t.val; rw [k0]; omega
  | ⟨1, _⟩ => show win0_4.index t 1 * 8192 + 1 * p.val = p.val; rw [k1]; omega
  | ⟨2, _⟩ => show win0_4.index t 2 * 128 + 1 * e.val = e.val; rw [k2]; omega

theorem iblk5_apply (c : Dev nD) (t : Fin cfg0.N) (p : Fin 8192) (e : Fin 128) :
    (iblk m c 5 t : Vec Ideal S1x8192x128 .f32) (ix3 (0 : Fin 1) p e) = m3 (m ((c : Thread nD τ).loc main_arg5)) (headOf t) p e := by
  obtain ⟨-, -, -, -, -, -, -, -, k0, k1, k2, v0, v1, v2, -⟩ := idx_facts t
  unfold iblk
  rw [View.read_apply]
  show V m c main_arg5 _ = m (c.tc.loc main_arg5) _
  unfold V
  refine congrArg _ (funext fun a => Fin.ext ?_)
  match a with
  | ⟨0, _⟩ => show win0_5.index t 0 * 1 + 1 * 0 = t.val; rw [v0]; omega
  | ⟨1, _⟩ => show win0_5.index t 1 * 8192 + 1 * p.val = p.val; rw [v1]; omega
  | ⟨2, _⟩ => show win0_5.index t 2 * 128 + 1 * e.val = e.val; rw [v2]; omega

/-! ## The tiles of the loaded blocks are the head's tiles of the arrays -/

theorem tile_eq (c : Dev nD) (t : Fin cfg0.N) :
    tile (iblk m c 0 t) (iblk m c 1 t) = proj (m2 (m ((c : Thread nD τ).loc main_arg0))) (m2 (m ((c : Thread nD τ).loc main_arg1))) (headOf t)
    ∧ tile (iblk m c 0 t) (iblk m c 2 t) = proj (m2 (m ((c : Thread nD τ).loc main_arg0))) (m2 (m ((c : Thread nD τ).loc main_arg2))) (headOf t)
    ∧ tile (iblk m c 0 t) (iblk m c 3 t) = proj (m2 (m ((c : Thread nD τ).loc main_arg0))) (m2 (m ((c : Thread nD τ).loc main_arg3))) (headOf t) := by
  refine ⟨funext fun r => funext fun e => ?_, funext fun r => funext fun e => ?_, funext fun r => funext fun e => ?_⟩
  · exact Finset.sum_congr rfl fun k _ => congrArg₂ (· * ·) (iblk0_apply m c t r k) (iblk1_apply m c t k e)
  · exact Finset.sum_congr rfl fun k _ => congrArg₂ (· * ·) (iblk0_apply m c t r k) (iblk2_apply m c t k e)
  · exact Finset.sum_congr rfl fun k _ => congrArg₂ (· * ·) (iblk0_apply m c t r k) (iblk3_apply m c t k e)

/-! ## The whole-array function at a column of head `h` -/

theorem hd_col (h : Fin 32) (e : Fin 128) : hd (col h e) = h := by
  apply Fin.ext; show (h.val * 128 + e.val) / 128 = h.val; have := e.isLt; omega
theorem ln_col (h : Fin 32) (e : Fin 128) : ln (col h e) = e := by
  apply Fin.ext; show (h.val * 128 + e.val) % 128 = e.val; have := e.isLt; omega

theorem GK_at (X : (⟨2, ![16, 4096]⟩ : Shape).Idx → EReal) (Wq Wk Wv : (⟨2, ![4096, 4096]⟩ : Shape).Idx → EReal)
    (Kc Vc : (⟨3, ![32, 8192, 128]⟩ : Shape).Idx → EReal) (r : Fin 16) (h : Fin 32) (e : Fin 128) :
    GK X Wq Wk Wv Kc Vc (ix2 r (col h e))
      = outK (rms (proj (m2 X) (m2 Wq) h)) (rms (proj (m2 X) (m2 Wk) h)) (proj (m2 X) (m2 Wv) h) (m3 Kc h) (m3 Vc h) r e := by
  unfold GK
  show outK (rms (proj (m2 X) (m2 Wq) (hd (col h e)))) (rms (proj (m2 X) (m2 Wk) (hd (col h e)))) (proj (m2 X) (m2 Wv) (hd (col h e)))
    (m3 Kc (hd (col h e))) (m3 Vc (hd (col h e))) r (ln (col h e)) = _
  rw [hd_col, ln_col]

/-! ## What each point writes back, the cover, and the array after the run -/

/-- The whole output array as one function of the six argument arrays as launched. -/
abbrev result (c : Dev nD) : (⟨2, ![16, 4096]⟩ : Shape).Idx → EReal :=
  GK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Point `t` writes back block column `t` of `result`: rows 0 … 15, columns 128 t … 128 t + 127. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz2]
  simp only [View.ld_unit_zero (S := S16x4096) hz2, View.ld_unit_zero (S := S4096x128) hz2, View.ld_unit_zero (S := S1x8192x128) hz3]
  obtain ⟨-, -, -, -, -, -, -, -, -, -, -, -, -, -, o0, o1⟩ := idx_facts t
  obtain ⟨hq, hk, hv⟩ := tile_eq m c t
  funext j
  obtain ⟨r, e, rfl⟩ : ∃ (r : Fin 16) (e : Fin 128), j = ix2 r e := ⟨j 0, j 1, eq_ix2 j⟩
  have hi : ((cfg0.win 6).blk t).view.emb (ix2 r e) = ix2 r (col (headOf t) e) := by
    funext a; apply Fin.ext
    match a with
    | ⟨0, _⟩ => show win0_6.index t 0 * 16 + 1 * r.val = r.val; rw [o0]; omega
    | ⟨1, _⟩ => show win0_6.index t 1 * 128 + 1 * e.val = t.val * 128 + e.val; rw [o1]; omega
  show k0_pay1 (k0_pay3 (iblk m c 0 t) (iblk m c 1 t)) (k0_pay4 (iblk m c 0 t) (iblk m c 2 t)) (k0_pay5 (iblk m c 0 t) (iblk m c 3 t))
      (k0_pay6 (iblk m c 5 t)) (k0_pay7 (iblk m c 0 t) (iblk m c 1 t) (iblk m c 4 t)) (ix2 r e)
    = result m c (((cfg0.win 6).blk t).view.emb (ix2 r e))
  rw [hi]
  refine (body_apply (iblk m c 0 t) (iblk m c 1 t) (iblk m c 2 t) (iblk m c 3 t) (iblk m c 4 t) (iblk m c 5 t) r e).trans ?_
  rw [hq, hk, hv]
  refine Eq.trans ?_ (GK_at _ _ _ _ _ _ r (headOf t) e).symm
  refine congrArg₂ (fun K V => outK _ _ _ K V r e) ?_ ?_
  · exact funext fun p => funext fun k => iblk4_apply m c t p k
  · exact funext fun p => funext fun k => iblk5_apply m c t p k

/-- Every entry of the output array lies in the block of the point of its column's head. -/
theorem cover (i : S16x4096.Idx) : ∃ t : Fin cfg0.N, (cfg0.win 6).flush t = true ∧ i ∈ ((cfg0.win 6).blk t).view.set := by
  have h0 : (i 0).val < 16 := (i 0).isLt
  have h1 : (i 1).val < 4096 := (i 1).isLt
  let t : Fin cfg0.N := ⟨(i 1).val / 128, by rw [show cfg0.N = 32 from N_0]; omega⟩
  obtain ⟨-, -, -, -, -, -, -, -, -, -, -, -, -, -, o0, o1⟩ := idx_facts t
  have ht : t.val = (i 1).val / 128 := rfl
  refine ⟨t, flush0_6 t, ?_⟩
  show i ∈ ((View.whole main_v0).slice (win0_6.rect t)).set
  rw [View.set_slice_whole, Rect.mem_set_unit]
  intro a
  match a with
  | ⟨0, _⟩ => show win0_6.index t 0 * 16 ≤ (i 0).val ∧ (i 0).val < win0_6.index t 0 * 16 + 16; rw [o0]; omega
  | ⟨1, _⟩ => show win0_6.index t 1 * 128 ≤ (i 1).val ∧ (i 1).val < win0_6.index t 1 * 128 + 128; rw [o1, ht]; omega

/-- So the output array ends holding `result`. -/
theorem final (c : Dev nD) : (dats m 0 c).arrAt 6 cfg0.N = result m c :=
  (dats m 0 c).arrAt_eq_of_cover 6 (result m c) (fun t _ => flushed_eq m c t) cover

/-- The run, read: the output array at `result` of the arguments as launched, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KValue

end
-- ==== Proof.RefRead.lean ====
/-
  The reference computation read as the joined-positions arrangement of one attention step.

  The reference program is a chain of array operations: three matrix products, a reshape and a transpose that cut each
  product into 32 heads of 128 lanes, a row normalisation of queries and keys by the reciprocal root of the mean square,
  the cached keys and values followed by the new ones along the position axis, the scores of every query row against all
  8208 joined positions, a row maximum, exponentials of the shifted scores, their row sum, the quotient of each
  exponential by that sum, the weighted sum of the joined values, and the transpose and reshape back to 16 x 4096.

  Each lemma below reads one of these arrays at explicit coordinates (head h, row m, lane d or e, position k) and
  identifies the entry with the corresponding term of the specification: proj, rms, cat, scoreR, mxR and finally outR.
  The last theorem puts the layers together: the program's result is the array GR.
-/
import proofs.«101306_j317827580175_2_alg».proof.Proof.Gen.ReferenceIdeal.Read
import proofs.«101306_j317827580175_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The activations, a weight matrix and a cache, as arrays of extended reals. -/
abbrev TX : Type := (⟨S16x4096, .f32⟩ : BufTy).Contents (Elt Ideal)
abbrev TW : Type := (⟨S4096x4096, .f32⟩ : BufTy).Contents (Elt Ideal)
abbrev TC : Type := (⟨S32x8192x128, .f32⟩ : BufTy).Contents (Elt Ideal)

/-! ## The projections, head by head

The product X W read at row m and column 128 h + d; the reshape sends (m, h, d) to that column, the transpose
puts the head first. -/

/-- Row-major position ((m, h, d) in 16 x 32 x 128) is (m, 128 h + d) in 16 x 4096. -/
theorem idx_reshape_in (h : Fin 32) (m : Fin 16) (d : Fin 128) :
    idx_main_v1 (ix3 m h d) = ix2 m (col h d) := by
  funext a
  apply Fin.ext
  have hm := m.isLt; have hh := h.isLt; have hd := d.isLt
  match a with
  | ⟨0, _⟩ => show ((m.val * 32 + h.val) * 128 + d.val) / 4096 = m.val; omega
  | ⟨1, _⟩ => show ((m.val * 32 + h.val) * 128 + d.val) % 4096 = h.val * 128 + d.val; omega

theorem idx_swap_in (h : Fin 32) (m : Fin 16) (d : Fin 128) :
    idx_main_v2 (ix3 h m d) = ix3 m h d := by
  funext a
  match a with
  | ⟨0, _⟩ => rfl
  | ⟨1, _⟩ => rfl
  | ⟨2, _⟩ => rfl

theorem lidx_prod (m : Fin 16) (c : Fin 4096) (n : Fin 4096) : lidx_main_v0 (ix2 m c) n = ix2 m n := by
  funext a
  match a with
  | ⟨0, _⟩ => rfl
  | ⟨1, _⟩ => rfl

theorem ridx_prod (m : Fin 16) (c : Fin 4096) (n : Fin 4096) : ridx_main_v0 (ix2 m c) n = ix2 n c := by
  funext a
  match a with
  | ⟨0, _⟩ => rfl
  | ⟨1, _⟩ => rfl

/-- The query tile of head h. -/
theorem q_at (x0 : TX) (x1 : TW) (h : Fin 32) (m : Fin 16) (d : Fin 128) :
    val_main_v2 (F := Ideal) x0 x1 (ix3 h m d) = proj (m2 x0) (m2 x1) h m d := by
  rw [val_main_v2_apply, idx_swap_in, val_main_v1_apply, idx_reshape_in, val_main_v0_apply]
  unfold proj
  refine Finset.sum_congr rfl fun n _ => ?_
  rw [lidx_prod, ridx_prod]

/-- The key and value tiles are the same chain of operations on the other two weight matrices. -/
theorem k_eq (x0 : TX) (x2 : TW) : val_main_v5 (F := Ideal) x0 x2 = val_main_v2 (F := Ideal) x0 x2 := rfl
theorem v_eq (x0 : TX) (x3 : TW) : val_main_v8 (F := Ideal) x0 x3 = val_main_v2 (F := Ideal) x0 x3 := rfl

theorem k_at (x0 : TX) (x2 : TW) (h : Fin 32) (m : Fin 16) (d : Fin 128) :
    val_main_v5 (F := Ideal) x0 x2 (ix3 h m d) = proj (m2 x0) (m2 x2) h m d := by
  rw [k_eq]; exact q_at x0 x2 h m d

theorem v_at (x0 : TX) (x3 : TW) (h : Fin 32) (m : Fin 16) (d : Fin 128) :
    val_main_v8 (F := Ideal) x0 x3 (ix3 h m d) = proj (m2 x0) (m2 x3) h m d := by
  rw [v_eq]; exact q_at x0 x3 h m d

/-! ## The row normalisation

The sum of squares over the 128 lanes of a row starts from the constant zero, which adds nothing; the mean is the
sum divided by 128.0; its reciprocal root is spread back over the lanes and multiplies the tile. -/

theorem idx_lanes (h : Fin 32) (m : Fin 16) (e : Fin 128) : idx_main_v10 (ix2 h m) e = ix3 h m e := by
  funext a
  match a with
  | ⟨0, _⟩ => rfl
  | ⟨1, _⟩ => rfl
  | ⟨2, _⟩ => rfl

theorem idx_keep (h : Fin 32) (m : Fin 16) (z : Fin 1) : idx_main_v11 (ix3 h m z) = ix2 h m := by
  funext a
  match a with
  | ⟨0, _⟩ => rfl
  | ⟨1, _⟩ => rfl

theorem idx_spread (h : Fin 32) (m : Fin 16) (d : Fin 128) : idx_main_v15 (ix3 h m d) = ix3 h m (0 : Fin 1) := by
  funext a
  match a with
  | ⟨0, _⟩ => rfl
  | ⟨1, _⟩ => rfl
  | ⟨2, _⟩ => rfl

/-- The sum of squares of a query row. -/
theorem qss_at (x0 : TX) (x1 : TW) (h : Fin 32) (m : Fin 16) :
    val_main_v10 (F := Ideal) x0 x1 (ix2 h m)
      = ∑ e : Fin 128, proj (m2 x0) (m2 x1) h m e * proj (m2 x0) (m2 x1) h m e := by
  rw [val_main_v10_apply, val_main_cst_apply, Ideal.ofBits_def, Ideal.ofBits_zero_f32, zero_add]
  refine Finset.sum_congr rfl fun e _ => ?_
  rw [idx_lanes, val_main_v9_apply, Ideal.mulf_def, q_at]

/-- The normalised query tile. -/
theorem qn_at (x0 : TX) (x1 : TW) (h : Fin 32) (m : Fin 16) (d : Fin 128) :
    val_main_v16 (F := Ideal) x0 x1 (ix3 h m d) = rms (proj (m2 x0) (m2 x1) h) m d := by
  rw [val_main_v16_apply, Ideal.mulf_def, q_at, val_main_v15_apply, idx_spread, val_main_v14_apply,
    Ideal.hostUnary_rsqrt_def, val_main_v13_apply, Ideal.hostDivf_def, val_main_v11_apply, idx_keep, qss_at,
    val_main_v12_apply, val_main_cst_0_apply, Ideal.ofBits_def]
  rfl

/-- The normalised key tile is the same chain on the key projection. -/
theorem kn_eq (x0 : TX) (x2 : TW) : val_main_v24 (F := Ideal) x0 x2 = val_main_v16 (F := Ideal) x0 x2 := rfl

theorem kn_at (x0 : TX) (x2 : TW) (h : Fin 32) (m : Fin 16) (d : Fin 128) :
    val_main_v24 (F := Ideal) x0 x2 (ix3 h m d) = rms (proj (m2 x0) (m2 x2) h) m d := by
  rw [kn_eq]; exact qn_at x0 x2 h m d

/-! ## Cached positions followed by new ones

Along the position axis the joined array holds the 8192 cached rows and then the 16 new rows: position k reads the
cache at k when k < 8192 and the new tile at k - 8192 otherwise. -/

theorem cat_at (A : S32x8192x128.Idx → EReal) (B : S32x16x128.Idx → EReal) (h : Fin 32) (k : Fin 8208) (e : Fin 128) :
    concatenate S32x8208x128 1 [⟨S32x8192x128, A⟩, ⟨S32x16x128, B⟩]
        concatenates_S32x8192x128_S32x16x128_S32x8208x128_d1 (ix3 h k e)
      = cat (fun p => A (ix3 h p e)) (fun n => B (ix3 h n e)) k := by
  unfold cat
  by_cases hk : k.val < 8192
  · rw [dif_pos hk]
    exact concatenate_pair_apply_left (t := S32x8208x128) 1 A B _ (ix3 h k e) rfl (ix3 h ⟨k.val, hk⟩ e)
      (fun b => match b with
        | ⟨0, _⟩ => rfl
        | ⟨1, _⟩ => rfl
        | ⟨2, _⟩ => rfl)
  · rw [dif_neg hk]
    have hk2 : k.val - 8192 < 16 := by have := k.isLt; omega
    exact concatenate_pair_apply_right (t := S32x8208x128) 1 A B _ (ix3 h k e) rfl rfl (ix3 h ⟨k.val - 8192, hk2⟩ e)
      (fun b hb => by
        rcases b with ⟨bv, hbv⟩
        have h3 : bv < 3 := hbv
        have h1 : bv ≠ 1 := fun h => hb (by subst h; rfl)
        interval_cases bv
        · rfl
        · exact absurd rfl h1
        · rfl)
      (by show k.val - 8192 + 8192 = k.val; omega)

/-- The joined keys of head h. -/
theorem kcat_at (x0 : TX) (x2 : TW) (x4 : TC) (h : Fin 32) (k : Fin 8208) (e : Fin 128) :
    val_main_v25 (F := Ideal) x0 x2 x4 (ix3 h k e)
      = cat (fun p => m3 x4 h p e) (fun n => rms (proj (m2 x0) (m2 x2) h) n e) k := by
  unfold val_main_v25
  refine (cat_at x4 (val_main_v24 (F := Ideal) x0 x2) h k e).trans ?_
  exact congrArg (fun b => cat (fun p => m3 x4 h p e) b k) (funext fun n => kn_at x0 x2 h n e)

/-- The joined values of head h. -/
theorem vcat_at (x0 : TX) (x3 : TW) (x5 : TC) (h : Fin 32) (k : Fin 8208) (d : Fin 128) :
    val_main_v26 (F := Ideal) x0 x3 x5 (ix3 h k d)
      = cat (fun p => m3 x5 h p d) (fun n => proj (m2 x0) (m2 x3) h n d) k := by
  unfold val_main_v26
  refine (cat_at x5 (val_main_v8 (F := Ideal) x0 x3) h k d).trans ?_
  exact congrArg (fun b => cat (fun p => m3 x5 h p d) b k) (funext fun n => v_at x0 x3 h n d)

/-! ## Scores, their shift, the weights

A score is the product of a normalised query row with a joined key row over the 128 lanes. -/

theorem lidx_score (h : Fin 32) (m : Fin 16) (k : Fin 8208) (e : Fin 128) :
    lidx_main_v27 (ix3 h m k) e = ix3 h m e := by
  funext a
  match a with
  | ⟨0, _⟩ => rfl
  | ⟨1, _⟩ => rfl
  | ⟨2, _⟩ => rfl

theorem ridx_score (h : Fin 32) (m : Fin 16) (k : Fin 8208) (e : Fin 128) :
    ridx_main_v27 (ix3 h m k) e = ix3 h k e := by
  funext a
  match a with
  | ⟨0, _⟩ => rfl
  | ⟨1, _⟩ => rfl
  | ⟨2, _⟩ => rfl

theorem score_at (x0 : TX) (x1 x2 : TW) (x4 : TC) (h : Fin 32) (m : Fin 16) (k : Fin 8208) :
    val_main_v27 (F := Ideal) x0 x1 x2 x4 (ix3 h m k)
      = scoreR (rms (proj (m2 x0) (m2 x1) h)) (rms (proj (m2 x0) (m2 x2) h)) (m3 x4 h) m k := by
  rw [val_main_v27_apply]
  unfold scoreR
  refine Finset.sum_congr rfl fun e _ => ?_
  rw [lidx_score, ridx_score, qn_at, kcat_at]

/-- The score array's last axis is the one the maximum and the sum run over. -/
theorem reduces_pos : S32x16x8208.Reduces [2] S32x16 := by decide

/-- Position k inserted after (h, m). -/
theorem lift_pos (h : Fin 32) (m : Fin 16) (k : Fin 8208) : reduces_pos.lift (ix2 h m) k = ix3 h m k := by
  funext a
  apply Fin.ext
  match a with
  | ⟨0, _⟩ => rfl
  | ⟨1, _⟩ => rfl
  | ⟨2, _⟩ => rfl

/-- The row maximum of the scores: the maximum over the 8208 positions, started from minus infinity. -/
theorem max_at (x0 : TX) (x1 x2 : TW) (x4 : TC) (h : Fin 32) (m : Fin 16) :
    val_main_v28 (F := Ideal) x0 x1 x2 x4 (ix2 h m)
      = rowmax (scoreR (rms (proj (m2 x0) (m2 x1) h)) (rms (proj (m2 x0) (m2 x2) h)) (m3 x4 h) m) := by
  unfold val_main_v28
  refine (Host.reduce_eq_fold_single (FloatOps.maximumf (F := Ideal) (φ := .f32)) (val_main_v27 (F := Ideal) x0 x1 x2 x4)
    (val_main_cst_3 (F := Ideal)) reducesTo_S32x16x8208_S32x16_d2 reduces_pos h_S_ (ix2 h m)).trans ?_
  rw [val_main_cst_3_apply, Ideal.ofBits_def]
  unfold rowmax
  show (Finset.univ : Finset (Fin 8208)).fold max (Ideal.ofBits .f32 0xFF800000#32)
      (fun (k : Fin 8208) => val_main_v27 (F := Ideal) x0 x1 x2 x4 (reduces_pos.lift (ix2 h m) k)) = _
  refine congrArg (fun f => (Finset.univ : Finset (Fin 8208)).fold max (Ideal.ofBits .f32 0xFF800000#32) f) ?_
  refine funext fun (k : Fin 8208) => ?_
  exact (congrArg (val_main_v27 (F := Ideal) x0 x1 x2 x4) (lift_pos h m k)).trans (score_at x0 x1 x2 x4 h m k)

theorem idx_fill (h : Fin 32) (m : Fin 16) : idx_main_v29 (ix2 h m) = ix0 := funext fun a => a.elim0

/-- The shift: minus infinity against the row maximum. -/
theorem mx_at (x0 : TX) (x1 x2 : TW) (x4 : TC) (h : Fin 32) (m : Fin 16) :
    val_main_v30 (F := Ideal) x0 x1 x2 x4 (ix2 h m)
      = mxR (rms (proj (m2 x0) (m2 x1) h)) (rms (proj (m2 x0) (m2 x2) h)) (m3 x4 h) m := by
  rw [val_main_v30_apply, Ideal.maximumf_def, val_main_v29_apply, val_main_cst_4_apply, Ideal.ofBits_def, max_at]
  rfl

theorem idx_keep_mx (h : Fin 32) (m : Fin 16) (z : Fin 1) : idx_main_v31 (ix3 h m z) = ix2 h m := by
  funext a
  match a with
  | ⟨0, _⟩ => rfl
  | ⟨1, _⟩ => rfl

theorem idx_spread_mx (h : Fin 32) (m : Fin 16) (k : Fin 8208) : idx_main_v32 (ix3 h m k) = ix3 h m (0 : Fin 1) := by
  funext a
  match a with
  | ⟨0, _⟩ => rfl
  | ⟨1, _⟩ => rfl
  | ⟨2, _⟩ => rfl

/-- The exponential of a shifted score. -/
theorem exp_at (x0 : TX) (x1 x2 : TW) (x4 : TC) (h : Fin 32) (m : Fin 16) (k : Fin 8208) :
    val_main_v34 (F := Ideal) x0 x1 x2 x4 (ix3 h m k)
      = Ideal.exp (scoreR (rms (proj (m2 x0) (m2 x1) h)) (rms (proj (m2 x0) (m2 x2) h)) (m3 x4 h) m k
          - mxR (rms (proj (m2 x0) (m2 x1) h)) (rms (proj (m2 x0) (m2 x2) h)) (m3 x4 h) m) := by
  rw [val_main_v34_apply, Ideal.hostUnary_exp_def, val_main_v33_apply, Ideal.subf_def, score_at, val_main_v32_apply,
    idx_spread_mx, val_main_v31_apply, idx_keep_mx, mx_at]

theorem idx_pos (h : Fin 32) (m : Fin 16) (k : Fin 8208) : idx_main_v35 (ix2 h m) k = ix3 h m k := by
  funext a
  match a with
  | ⟨0, _⟩ => rfl
  | ⟨1, _⟩ => rfl
  | ⟨2, _⟩ => rfl

/-- The row sum of the exponentials; the constant zero it starts from adds nothing. -/
theorem esum_at (x0 : TX) (x1 x2 : TW) (x4 : TC) (h : Fin 32) (m : Fin 16) :
    val_main_v35 (F := Ideal) x0 x1 x2 x4 (ix2 h m)
      = ∑ k : Fin 8208, Ideal.exp (scoreR (rms (proj (m2 x0) (m2 x1) h)) (rms (proj (m2 x0) (m2 x2) h)) (m3 x4 h) m k
          - mxR (rms (proj (m2 x0) (m2 x1) h)) (rms (proj (m2 x0) (m2 x2) h)) (m3 x4 h) m) := by
  rw [val_main_v35_apply, val_main_cst_5_apply, Ideal.ofBits_def, Ideal.ofBits_zero_f32, zero_add]
  refine Finset.sum_congr rfl fun k _ => ?_
  rw [idx_pos, exp_at]

theorem idx_keep_sum (h : Fin 32) (m : Fin 16) (z : Fin 1) : idx_main_v36 (ix3 h m z) = ix2 h m := by
  funext a
  match a with
  | ⟨0, _⟩ => rfl
  | ⟨1, _⟩ => rfl

theorem idx_spread_sum (h : Fin 32) (m : Fin 16) (k : Fin 8208) : idx_main_v37 (ix3 h m k) = ix3 h m (0 : Fin 1) := by
  funext a
  match a with
  | ⟨0, _⟩ => rfl
  | ⟨1, _⟩ => rfl
  | ⟨2, _⟩ => rfl

/-- A weight: the exponential divided by the row sum. -/
theorem w_at (x0 : TX) (x1 x2 : TW) (x4 : TC) (h : Fin 32) (m : Fin 16) (k : Fin 8208) :
    val_main_v38 (F := Ideal) x0 x1 x2 x4 (ix3 h m k)
      = Ideal.div
          (Ideal.exp (scoreR (rms (proj (m2 x0) (m2 x1) h)) (rms (proj (m2 x0) (m2 x2) h)) (m3 x4 h) m k
            - mxR (rms (proj (m2 x0) (m2 x1) h)) (rms (proj (m2 x0) (m2 x2) h)) (m3 x4 h) m))
          (∑ k' : Fin 8208, Ideal.exp (scoreR (rms (proj (m2 x0) (m2 x1) h)) (rms (proj (m2 x0) (m2 x2) h)) (m3 x4 h) m k'
            - mxR (rms (proj (m2 x0) (m2 x1) h)) (rms (proj (m2 x0) (m2 x2) h)) (m3 x4 h) m)) := by
  rw [val_main_v38_apply, Ideal.hostDivf_def, exp_at, val_main_v37_apply, idx_spread_sum, val_main_v36_apply,
    idx_keep_sum, esum_at]

/-! ## The output

The weighted sum of the joined values, then the head moved back behind the row and (m, h, d) read as column 128 h + d. -/

theorem lidx_out (h : Fin 32) (m : Fin 16) (d : Fin 128) (k : Fin 8208) :
    lidx_main_v39 (ix3 h m d) k = ix3 h m k := by
  funext a
  match a with
  | ⟨0, _⟩ => rfl
  | ⟨1, _⟩ => rfl
  | ⟨2, _⟩ => rfl

theorem ridx_out (h : Fin 32) (m : Fin 16) (d : Fin 128) (k : Fin 8208) :
    ridx_main_v39 (ix3 h m d) k = ix3 h k d := by
  funext a
  match a with
  | ⟨0, _⟩ => rfl
  | ⟨1, _⟩ => rfl
  | ⟨2, _⟩ => rfl

theorem out_at (x0 : TX) (x1 x2 x3 : TW) (x4 x5 : TC) (h : Fin 32) (m : Fin 16) (d : Fin 128) :
    val_main_v39 (F := Ideal) x0 x1 x2 x3 x4 x5 (ix3 h m d)
      = outR (rms (proj (m2 x0) (m2 x1) h)) (rms (proj (m2 x0) (m2 x2) h)) (proj (m2 x0) (m2 x3) h)
          (m3 x4 h) (m3 x5 h) m d := by
  rw [val_main_v39_apply]
  unfold outR
  refine Finset.sum_congr rfl fun k _ => ?_
  rw [lidx_out, ridx_out, w_at, vcat_at]

theorem idx_swap_out (m : Fin 16) (h : Fin 32) (d : Fin 128) : idx_main_v40 (ix3 m h d) = ix3 h m d := by
  funext a
  match a with
  | ⟨0, _⟩ => rfl
  | ⟨1, _⟩ => rfl
  | ⟨2, _⟩ => rfl

/-- Column c of the 16 x 4096 result is lane c mod 128 of head c / 128. -/
theorem idx_reshape_out (m : Fin 16) (c : Fin 4096) : idx_main_v41 (ix2 m c) = ix3 m (hd c) (ln c) := by
  funext a
  apply Fin.ext
  have hm := m.isLt; have hc := c.isLt
  match a with
  | ⟨0, _⟩ => show (m.val * 4096 + c.val) / 4096 = m.val; omega
  | ⟨1, _⟩ => show (m.val * 4096 + c.val) / 128 % 32 = c.val / 128; omega
  | ⟨2, _⟩ => show (m.val * 4096 + c.val) % 128 = c.val % 128; omega

/-- The reference program computes the joined-positions arrangement. -/
theorem ref_eq (x0 : TX) (x1 x2 x3 : TW) (x4 x5 : TC) :
    val_main_v41 (F := Ideal) x0 x1 x2 x3 x4 x5 = GR x0 x1 x2 x3 x4 x5 := by
  funext i
  obtain ⟨m, c, rfl⟩ : ∃ (m : Fin 16) (c : Fin 4096), i = ix2 m c := ⟨i 0, i 1, eq_ix2 i⟩
  rw [val_main_v41_apply, idx_reshape_out, val_main_v40_apply, idx_swap_out, out_at]
  rfl

end Cert.ReferenceIdeal.RefValue

end
-- ==== Proof.Finite.lean ====
/-
  Every entry of the six input arrays is a real number.

  The precondition evaluates, for each input array x, the conjunction over all entries of |x| < +∞, and joins the six
  conjunctions by "and"; it states that the result is the bit 1. On the extended reals |x| is max x (-x), which is +∞
  both at +∞ and at -∞, so |x| < +∞ holds exactly at the real numbers. Read backwards: the joined bit is 1, hence each
  of the six conjunctions is 1, hence each entry's comparison is 1, hence each entry is a real number.
-/
import proofs.«101306_j317827580175_2_alg».proof.Defs
import proofs.«101306_j317827580175_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.SL.Sem Idealize.ShloMosaic.ValueIdx Cert.Pre_finite_inputs

/-- The scalar shape has one index. -/
instance subsingleton_scalar_idx : Subsingleton S_.Idx := ⟨fun a b => funext fun d => d.elim0⟩

/-- An extended real whose absolute value max x (-x) lies below +∞ is a real number: at -∞ and at +∞ the absolute
    value is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 denotes +∞. -/
theorem ofBits_inf : Ideal.ofBits .f32 0x7F800000#32 = (⊤ : EReal) := by simp [Ideal.ofBits, Ideal.ieee]

/-- One entry: the comparison |x| < +∞ came out 1, so x is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  apply real_of_abs_lt_top
  rw [Ideal.hostAbsf_def, Ideal.cmpf_def, Ideal.absf_def, Ideal.ofBits_def, ofBits_inf] at h
  by_contra hn
  simp [Ideal.cmp, hn] at h

/-- One array of any shape: the conjunction over all its entries of |x| < +∞ came out 1, so every entry is a real
    number. -/
theorem real_of_all {s t u : Shape} {axes : List (Fin s.rank)} [Subsingleton t.Idx]
    (hb : S_.BroadcastsInDim s (![] : Fin 0 → Fin s.rank)) (hr : s.ReducesTo axes t) (hu : 0 < u.numel)
    (a : FVec Ideal s .f32) (init : IVec u 1) (j : t.Idx)
    (h : Host.reduce IntOp.andi
          (cmpf .olt (Host.absf a) (broadcastInDim s ![] hb (constant (F := Ideal) S_ .f32 0x7F800000#32))) init hr hu j
        = 1#1) :
    ∀ i, ∃ r : ℝ, a i = (r : EReal) := fun i =>
  real_of_cmp (a i) (Host.reduce_andi_all _ init hr hu j h i)

variable [Cert.Pre_finite_inputs.Facts]

/-- The precondition's function at the six arrays is the bit 1: every entry of every array is a real number. -/
theorem real_of_fn (a0 : FVec Ideal S16x4096 .f32) (a1 a2 a3 : FVec Ideal S4096x4096 .f32)
    (a4 a5 : FVec Ideal S32x8192x128 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ix0
  dsimp only [Cert.Pre_finite_inputs.fn, Cert.Pre_finite_inputs.fn_part1, andi] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨real_of_all _ _ _ a0 _ _ h0', real_of_all _ _ _ a1 _ _ h1, real_of_all _ _ _ a2 _ _ h2,
    real_of_all _ _ _ a3 _ _ h3, real_of_all _ _ _ a4 _ _ h4, real_of_all _ _ _ a5 _ _ h5⟩

/-- The same at a memory of which the precondition holds: on every device the six argument arrays hold real numbers
    only. -/
theorem real_of_pre
    (m : (ℓ : Loc Cert.KernelIdeal.nD Cert.KernelIdeal.τ Cert.KernelIdeal.sig) →
      Buf (Elt Ideal) ℓ)
    (hm : Cert.Pre_KernelIdeal m) (c : Dev Cert.KernelIdeal.nD) :
    (∀ i : S16x4096.Idx, ∃ r : ℝ,
        m ((c.tc : Thread Cert.KernelIdeal.nD Cert.KernelIdeal.τ).loc Cert.KernelIdeal.main_arg0) i = (r : EReal))
      ∧ (∀ i : S4096x4096.Idx, ∃ r : ℝ,
        m ((c.tc : Thread Cert.KernelIdeal.nD Cert.KernelIdeal.τ).loc Cert.KernelIdeal.main_arg1) i = (r : EReal))
      ∧ (∀ i : S4096x4096.Idx, ∃ r : ℝ,
        m ((c.tc : Thread Cert.KernelIdeal.nD Cert.KernelIdeal.τ).loc Cert.KernelIdeal.main_arg2) i = (r : EReal))
      ∧ (∀ i : S4096x4096.Idx, ∃ r : ℝ,
        m ((c.tc : Thread Cert.KernelIdeal.nD Cert.KernelIdeal.τ).loc Cert.KernelIdeal.main_arg3) i = (r : EReal))
      ∧ (∀ i : S32x8192x128.Idx, ∃ r : ℝ,
        m ((c.tc : Thread Cert.KernelIdeal.nD Cert.KernelIdeal.τ).loc Cert.KernelIdeal.main_arg4) i = (r : EReal))
      ∧ (∀ i : S32x8192x128.Idx, ∃ r : ℝ,
        m ((c.tc : Thread Cert.KernelIdeal.nD Cert.KernelIdeal.τ).loc Cert.KernelIdeal.main_arg5) i = (r : EReal)) :=
  real_of_fn _ _ _ _ _ _ (hm c)

end Cert.Finite

end
-- ==== Proof.Algebra.lean ====
/-
  The two arrangements of the attention step agree on real scores.

  On the extended reals multiplication does not distribute over addition in general (⊤ + ⊥ is the obstacle), but
  multiplication by a NONNEGATIVE REAL does, whatever the summands are. The softmax denominator is a sum of
  exponentials of real numbers, hence a positive real ℓ, and dividing by it is multiplying by the nonnegative real
  1/ℓ. So dividing every weight first (and then weighing the values and adding) equals adding first and dividing once.
  The row maximum over the joined positions is the larger of the two row maxima, and a sum over the joined positions
  is the sum over the cached ones plus the sum over the new ones; this identifies the pieces of the two arrangements.
-/
import proofs.«101306_j317827580175_2_alg».proof.Proof.Spec

noncomputable section

open scoped BigOperators

namespace Cert.Attn

open Idealize.ShloMosaic

/-! ### Real elements of the extended reals -/

/-- An extended real that is (the image of) a real number. -/
def IsR (x : EReal) : Prop := ∃ r : ℝ, x = (r : EReal)

theorem IsR.zero : IsR 0 := ⟨0, EReal.coe_zero.symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.max {x y : EReal} (hx : IsR x) (hy : IsR y) : IsR (max x y) := by
  rcases max_choice x y with h | h <;> rw [h] <;> assumption

theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

/-- The image of a finite sum of reals is the sum of the images. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Multiplying by a nonnegative real distributes over any finite sum of extended reals. -/
theorem coe_mul_sum {ι : Type*} {r : ℝ} (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-! ### The two constants -/

/-- The pattern of 128.0 denotes the real 128. -/
theorem ofBits_128 : Ideal.ofBits .f32 0x43000000#32 = ((128 : ℝ) : EReal) := by
  simp [Ideal.ofBits, Ideal.ieee, -EReal.coe_mul]; norm_num

/-- The pattern of minus infinity denotes ⊥. -/
theorem ofBits_neg_inf : Ideal.ofBits .f32 0xFF800000#32 = ⊥ := by
  simp [Ideal.ofBits, Ideal.ieee]

/-! ### Projections and normalised rows of real arrays are real -/

theorem proj_isR (X : Fin 16 → Fin 4096 → EReal) (W : Fin 4096 → Fin 4096 → EReal)
    (hX : ∀ m n, IsR (X m n)) (hW : ∀ n c, IsR (W n c)) (h : Fin 32) (m : Fin 16) (d : Fin 128) :
    IsR (proj X W h m d) :=
  IsR.sum _ _ fun n _ => (hX m n).mul (hW n (col h d))

/-- A real row scaled by the reciprocal root of its mean square stays real: if the sum of squares vanishes the
    whole row vanishes, and 0 · ⊤ = 0; otherwise the factor is a real number. -/
theorem rms_isR (q : Fin 16 → Fin 128 → EReal) (hq : ∀ m d, IsR (q m d)) (m : Fin 16) (d : Fin 128) :
    IsR (rms q m d) := by
  choose f hf using hq
  have hs : (∑ e : Fin 128, q m e * q m e) = ((∑ e : Fin 128, f m e * f m e : ℝ) : EReal) := by
    rw [← coe_sum]
    exact Finset.sum_congr rfl fun e _ => by rw [hf m e, EReal.coe_mul]
  have hnn : 0 ≤ ∑ e : Fin 128, f m e * f m e := Finset.sum_nonneg fun e _ => mul_self_nonneg _
  unfold rms
  rw [hs, ofBits_128, Ideal.div_coe (by norm_num : (128 : ℝ) ≠ 0), ← EReal.coe_mul, Ideal.rsqrt_coe]
  split_ifs with h1 h2
  · exfalso
    have : 0 ≤ (∑ e : Fin 128, f m e * f m e) * (1 / 128) := mul_nonneg hnn (by norm_num)
    linarith
  · have h0 : ∑ e : Fin 128, f m e * f m e = 0 := by
      rcases mul_eq_zero.mp h2 with h | h
      · exact h
      · norm_num at h
    have hd : f m d * f m d = 0 :=
      (Finset.sum_eq_zero_iff_of_nonneg fun e _ => mul_self_nonneg (f m e)).mp h0 d (Finset.mem_univ d)
    have hd' : f m d = 0 := mul_self_eq_zero.mp hd
    rw [hf m d, hd', EReal.coe_zero, zero_mul]
    exact IsR.zero
  · rw [hf m d]
    exact IsR.mul ⟨f m d, rfl⟩ ⟨_, rfl⟩

/-! ### Joined positions: reading, sums and maxima -/

theorem cat_castAdd (a : Fin 8192 → EReal) (c : Fin 16 → EReal) (p : Fin 8192) :
    cat a c (Fin.castAdd 16 p) = a p := by
  unfold cat
  rw [dif_pos (show (Fin.castAdd 16 p).val < 8192 from p.isLt)]
  rfl

theorem cat_natAdd (a : Fin 8192 → EReal) (c : Fin 16 → EReal) (n : Fin 16) :
    cat a c (Fin.natAdd 8192 n) = c n := by
  unfold cat
  rw [dif_neg (show ¬ (Fin.natAdd 8192 n).val < 8192 from by simp)]
  exact congrArg c (Fin.ext (show 8192 + n.val - 8192 = n.val by omega))

/-- A function applied after joining is the joining of the two compositions. -/
theorem map_cat (g : EReal → EReal) (a : Fin 8192 → EReal) (c : Fin 16 → EReal) (k : Fin 8208) :
    g (cat a c k) = cat (fun p => g (a p)) (fun n => g (c n)) k := by
  unfold cat
  split_ifs <;> rfl

/-- A sum over the joined positions is the sum over the cached ones plus the sum over the new ones. -/
theorem sum_split (g : Fin 8208 → EReal) :
    ∑ k : Fin 8208, g k = (∑ p : Fin 8192, g (Fin.castAdd 16 p)) + ∑ n : Fin 16, g (Fin.natAdd 8192 n) :=
  Fin.sum_univ_add (a := 8192) (b := 16) g

/-- The maximum over the joined positions is the larger of the two maxima. -/
theorem fold_max_cat (b : EReal) (a : Fin 8192 → EReal) (c : Fin 16 → EReal) :
    (Finset.univ : Finset (Fin 8208)).fold max b (cat a c)
      = max ((Finset.univ : Finset (Fin 8192)).fold max b a) ((Finset.univ : Finset (Fin 16)).fold max b c) := by
  apply le_antisymm
  · rw [Finset.fold_max_le]
    refine ⟨le_max_of_le_left ((Finset.le_fold_max b).mpr (Or.inl le_rfl)), fun k _ => ?_⟩
    unfold cat
    split_ifs with h
    · exact le_max_of_le_left ((Finset.le_fold_max _).mpr (Or.inr ⟨_, Finset.mem_univ _, le_rfl⟩))
    · exact le_max_of_le_right ((Finset.le_fold_max _).mpr (Or.inr ⟨_, Finset.mem_univ _, le_rfl⟩))
  · refine max_le ?_ ?_
    · rw [Finset.fold_max_le]
      exact ⟨(Finset.le_fold_max b).mpr (Or.inl le_rfl), fun p _ =>
        (Finset.le_fold_max _).mpr (Or.inr ⟨Fin.castAdd 16 p, Finset.mem_univ _, (cat_castAdd a c p).ge⟩)⟩
    · rw [Finset.fold_max_le]
      exact ⟨(Finset.le_fold_max b).mpr (Or.inl le_rfl), fun n _ =>
        (Finset.le_fold_max _).mpr (Or.inr ⟨Fin.natAdd 8192 n, Finset.mem_univ _, (cat_natAdd a c n).ge⟩)⟩

/-- The maximum, from ⊥, of a nonempty finite family of reals is a real. -/
theorem fold_max_isR {P : ℕ} (hP : 0 < P) (s : Fin P → EReal) (hs : ∀ p, IsR (s p)) :
    IsR ((Finset.univ : Finset (Fin P)).fold max ⊥ s) := by
  have hbot : ⊥ < (Finset.univ : Finset (Fin P)).fold max ⊥ s := by
    rw [Finset.lt_fold_max]
    obtain ⟨r, hr⟩ := hs ⟨0, hP⟩
    exact Or.inr ⟨⟨0, hP⟩, Finset.mem_univ _, by rw [hr]; exact EReal.bot_lt_coe r⟩
  have htop : (Finset.univ : Finset (Fin P)).fold max ⊥ s < ⊤ := by
    rw [Finset.fold_max_lt]
    refine ⟨bot_lt_top, fun x _ => ?_⟩
    obtain ⟨r, hr⟩ := hs x
    rw [hr]; exact EReal.coe_lt_top r
  exact ⟨_, (EReal.coe_toReal htop.ne hbot.ne').symm⟩

theorem rowmax_isR {P : ℕ} (hP : 0 < P) (s : Fin P → EReal) (hs : ∀ p, IsR (s p)) : IsR (rowmax s) := by
  unfold rowmax
  rw [ofBits_neg_inf]
  exact fold_max_isR hP s hs

/-! ### The scores and the shift of the joined arrangement -/

/-- The scores over the joined positions are the two score tiles, joined. -/
theorem scoreR_eq_cat (qn kn : Fin 16 → Fin 128 → EReal) (Kc : Fin 8192 → Fin 128 → EReal) (m : Fin 16)
    (k : Fin 8208) : scoreR qn kn Kc m k = cat (score qn Kc m) (score qn kn m) k := by
  unfold scoreR cat score
  split_ifs <;> rfl

/-- The two arrangements shift by the same number. -/
theorem mxR_eq_mxK (qn kn : Fin 16 → Fin 128 → EReal) (Kc : Fin 8192 → Fin 128 → EReal) (m : Fin 16) :
    mxR qn kn Kc m = mxK qn kn Kc m := by
  have hfun : scoreR qn kn Kc m = cat (score qn Kc m) (score qn kn m) := funext (scoreR_eq_cat qn kn Kc m)
  unfold mxR mxK
  rw [hfun, ofBits_neg_inf, max_eq_right bot_le]
  unfold rowmax
  rw [ofBits_neg_inf]
  exact fold_max_cat ⊥ _ _

/-! ### One division at the end against a division of every weight -/

/-- If the weights add up to a positive real, dividing the weighted sum of the values once equals weighing the
    values with the divided weights — for arbitrary values. -/
theorem div_once_eq_div_each (EK VK : Fin 8192 → EReal) (EN VN : Fin 16 → EReal) (l : ℝ) (hl : 0 < l)
    (hL : (∑ p : Fin 8192, EK p) + ∑ n : Fin 16, EN n = (l : EReal)) :
    Ideal.div ((∑ p : Fin 8192, EK p * VK p) + ∑ n : Fin 16, EN n * VN n)
        ((∑ p : Fin 8192, EK p) + ∑ n : Fin 16, EN n)
      = ∑ k : Fin 8208, Ideal.div (cat EK EN k) (∑ k' : Fin 8208, cat EK EN k') * cat VK VN k := by
  have hc : (0 : ℝ) ≤ 1 / l := by positivity
  have hsum : (∑ k' : Fin 8208, cat EK EN k') = (l : EReal) := by
    rw [sum_split]
    simp only [cat_castAdd, cat_natAdd]
    exact hL
  have hterm : ∀ {P : ℕ} (E V : Fin P → EReal),
      ∑ p : Fin P, E p * ((1 / l : ℝ) : EReal) * V p = ((1 / l : ℝ) : EReal) * ∑ p : Fin P, E p * V p := by
    intro P E V
    rw [coe_mul_sum hc]
    exact Finset.sum_congr rfl fun p _ => by rw [mul_comm (E p), mul_assoc]
  rw [hL, hsum, Ideal.div_coe hl.ne']
  simp only [Ideal.div_coe hl.ne']
  rw [sum_split]
  simp only [cat_castAdd, cat_natAdd]
  rw [hterm, hterm, ← EReal.left_distrib_of_nonneg_of_ne_top (EReal.coe_nonneg.mpr hc) (EReal.coe_ne_top _), mul_comm]

/-! ### The two arrangements agree -/

/-- The exponential of a difference of reals is a real (the exponential of the difference). -/
theorem exp_sub_coe (a u : ℝ) : Ideal.exp ((a : EReal) - (u : EReal)) = ((Real.exp (a - u) : ℝ) : EReal) := by
  rw [← EReal.coe_sub, Ideal.exp_coe]

theorem outK_eq_outR (qn kn v : Fin 16 → Fin 128 → EReal) (Kc Vc : Fin 8192 → Fin 128 → EReal)
    (hq : ∀ m d, IsR (qn m d)) (hk : ∀ n d, IsR (kn n d)) (hKc : ∀ p d, IsR (Kc p d)) (m : Fin 16) (d : Fin 128) :
    outK qn kn v Kc Vc m d = outR qn kn v Kc Vc m d := by
  -- the scores are real, and so is the shift
  have hsK : ∀ p, IsR (score qn Kc m p) := fun p => IsR.sum _ _ fun e _ => (hq m e).mul (hKc p e)
  have hsN : ∀ n, IsR (score qn kn m n) := fun n => IsR.sum _ _ fun e _ => (hq m e).mul (hk n e)
  obtain ⟨u, hu⟩ : IsR (mxK qn kn Kc m) :=
    (rowmax_isR (by norm_num) _ hsK).max (rowmax_isR (by norm_num) _ hsN)
  choose a ha using hsK
  choose b hb using hsN
  -- the exponentials are positive reals, and so is their sum
  have hEK : ∀ p, Ideal.exp (score qn Kc m p - mxK qn kn Kc m) = ((Real.exp (a p - u) : ℝ) : EReal) :=
    fun p => by rw [ha p, hu, exp_sub_coe]
  have hEN : ∀ n, Ideal.exp (score qn kn m n - mxK qn kn Kc m) = ((Real.exp (b n - u) : ℝ) : EReal) :=
    fun n => by rw [hb n, hu, exp_sub_coe]
  have hL : (∑ p : Fin 8192, Ideal.exp (score qn Kc m p - mxK qn kn Kc m))
      + ∑ n : Fin 16, Ideal.exp (score qn kn m n - mxK qn kn Kc m)
      = (((∑ p : Fin 8192, Real.exp (a p - u)) + ∑ n : Fin 16, Real.exp (b n - u) : ℝ) : EReal) := by
    rw [EReal.coe_add, ← coe_sum, ← coe_sum]
    simp only [hEK, hEN]
  have hl : 0 < (∑ p : Fin 8192, Real.exp (a p - u)) + ∑ n : Fin 16, Real.exp (b n - u) :=
    add_pos_of_nonneg_of_pos (Finset.sum_nonneg fun p _ => (Real.exp_pos _).le)
      (Finset.sum_pos (fun n _ => Real.exp_pos _) ⟨⟨0, by norm_num⟩, Finset.mem_univ _⟩)
  -- the joined arrangement read through the joining
  have hE : ∀ k : Fin 8208, Ideal.exp (scoreR qn kn Kc m k - mxR qn kn Kc m)
      = cat (fun p => Ideal.exp (score qn Kc m p - mxK qn kn Kc m))
          (fun n => Ideal.exp (score qn kn m n - mxK qn kn Kc m)) k := by
    intro k
    rw [mxR_eq_mxK, scoreR_eq_cat]
    exact map_cat (fun s => Ideal.exp (s - mxK qn kn Kc m)) _ _ k
  unfold outR
  simp only [hE]
  unfold outK
  exact div_once_eq_div_each _ _ _ _ _ hl hL

theorem GK_eq_GR (X : (⟨2, ![16, 4096]⟩ : Shape).Idx → EReal) (Wq Wk Wv : (⟨2, ![4096, 4096]⟩ : Shape).Idx → EReal)
    (Kc Vc : (⟨3, ![32, 8192, 128]⟩ : Shape).Idx → EReal)
    (hX : ∀ i, IsR (X i)) (hWq : ∀ i, IsR (Wq i)) (hWk : ∀ i, IsR (Wk i)) (hKc : ∀ i, IsR (Kc i)) :
    GK X Wq Wk Wv Kc Vc = GR X Wq Wk Wv Kc Vc := by
  funext i
  unfold GK GR
  exact outK_eq_outR _ _ _ _ _
    (rms_isR _ (proj_isR _ _ (fun m n => hX _) (fun n c => hWq _) _))
    (rms_isR _ (proj_isR _ _ (fun m n => hX _) (fun n c => hWk _) _))
    (fun p d => hKc _) _ _

end Cert.Attn

end
-- ==== Proof.lean ====
/-
  One attention step with a key/value cache, fused into one kernel, against its jnp reference, on the extended reals.

  Per head, both programs project the activations onto 128 columns of three weight matrices, scale the query and key
  tiles by the reciprocal root of their rows' mean squares, score each query row against the head's 8192 cached keys
  and its 16 new keys, take a softmax over all 8208 positions and weigh the cached and the new values with it. The
  kernel keeps the cached and the new positions apart and divides once at the end (`Attn.GK`: the module KernelValue,
  over the body read entry by entry in the module Payload); the reference joins the positions first and divides every
  weight before it meets its value (`Attn.GR`: the module RefRead). Under the precondition every input entry is a real
  number (the module Finite); then every score is real, the sum of the exponentials is a positive real, and dividing
  by it is multiplying by a nonnegative real, which distributes over any finite sum of extended reals: the two
  arrangements agree (the module Algebra). The ideal pass rewrote nothing, so the kernel's idealization is its own
  text read on the extended reals.
-/
import proofs.«101306_j317827580175_2_alg».proof.Defs
import proofs.«101306_j317827580175_2_alg».proof.Proof.Gen.Kernel
import proofs.«101306_j317827580175_2_alg».proof.Proof.Gen.Kernel.Frame
import proofs.«101306_j317827580175_2_alg».proof.Proof.Gen.KernelIdeal
import proofs.«101306_j317827580175_2_alg».proof.Proof.Gen.KernelIdeal.Frame
import proofs.«101306_j317827580175_2_alg».proof.Proof.Gen.KernelIdeal.Value
import proofs.«101306_j317827580175_2_alg».proof.Proof.Gen.ReferenceIdeal
import proofs.«101306_j317827580175_2_alg».proof.Proof.Gen.ReferenceIdeal.Run
import proofs.«101306_j317827580175_2_alg».proof.Proof.Gen.ReferenceIdeal.Read
import proofs.«101306_j317827580175_2_alg».proof.Proof.Gen.Pre_finite_inputs
import proofs.«101306_j317827580175_2_alg».proof.Proof.KernelValue
import proofs.«101306_j317827580175_2_alg».proof.Proof.RefRead
import proofs.«101306_j317827580175_2_alg».proof.Proof.Finite
import proofs.«101306_j317827580175_2_alg».proof.Proof.Algebra
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, with its result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the six arguments, the kernel's output array ends at `Attn.GK` of them and the
    reference's result at `Attn.GR` of them; the arguments being real numbers entry by entry, the two are equal. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, -, h4, -⟩ := Cert.Finite.real_of_pre m hpre c
  rw [Cert.ReferenceIdeal.Read.val_main_v41_eq, Cert.ReferenceIdeal.RefValue.ref_eq,
    (hagree c).1, (hagree c).2.1, (hagree c).2.2.1, (hagree c).2.2.2.1, (hagree c).2.2.2.2.1, (hagree c).2.2.2.2.2]
  exact (Cert.Attn.GK_eq_GR _ _ _ _ _ _ h0 h1 h2 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
